-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S256x256 : Shape := ⟨2, ![256, 256]⟩
abbrev S40x256 : Shape := ⟨2, ![40, 256]⟩
abbrev S40 : Shape := ⟨1, ![40]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x256 : S_.BroadcastsInDim S256x256 (![] : Fin 0 → Fin S256x256.rank)
  reducesTo_S256x256_S_d0_1 : S256x256.ReducesTo [0, 1] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S40x256 1) : IVec S_ 1 :=
  let main_c_5 : IVec S_ 1 := constantI S_ 1 1#1
  let main_v17 : IVec S_ 1 := (fun x v => Host.reduce IntOp.andi x v reducesTo_S40x256_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S16384x128 .f32) (main_arg1 : FVec F S16384x16384 .f32) (main_arg2 : FVec F S256x256 .f32) (main_arg3 : FVec F S40x256 .f32) (main_arg4 : FVec F S40 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S40x256 .f32 := Host.absf main_arg3
  let main_cst_4 : FVec F S_ .f32 := constant S_ .f32 0x7F800000#32
  let main_v15 : FVec F S40x256 .f32 := broadcastInDim S40x256 ![] bcast_S_S40x256 main_cst_4
  let main_v16 : IVec S40x256 1 := cmpf .olt main_v14 main_v15
  fn_part1 (F := F) main_arg4 main_v13 main_v16
-- ==== Kernel.lean ====
abbrev S16384x128 : Shape := ⟨2, ![16384, 128]⟩
abbrev S16384x16384 : Shape := ⟨2, ![16384, 16384]⟩
abbrev S256x256 : Shape := ⟨2, ![256, 256]⟩
abbrev S40x256 : Shape := ⟨2, ![40, 256]⟩
abbrev S40 : Shape := ⟨1, ![40]⟩
abbrev S256x128 : Shape := ⟨2, ![256, 128]⟩
abbrev S128x256 : Shape := ⟨2, ![128, 256]⟩
abbrev S256x40 : Shape := ⟨2, ![256, 40]⟩
abbrev S_ : Shape := ⟨0, ![]⟩
abbrev S1 : Shape := ⟨1, ![1]⟩
abbrev S1x128 : Shape := ⟨2, ![1, 128]⟩
abbrev S1x40 : Shape := ⟨2, ![1, 40]⟩
abbrev S2048x2048 : Shape := ⟨2, ![2048, 2048]⟩
abbrev S2048x128 : Shape := ⟨2, ![2048, 128]⟩
abbrev S2048x1 : Shape := ⟨2, ![2048, 1]⟩
abbrev S2048 : Shape := ⟨1, ![2048]⟩
abbrev S2048x256 : Shape := ⟨2, ![2048, 256]⟩
abbrev S16384x40 : Shape := ⟨2, ![16384, 40]⟩

abbrev nBuf : Space → Nat
  | .hbm => 23
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S256x256, .f32⟩
  | .hbm, ⟨3, _⟩ => ⟨S40x256, .f32⟩
  | .hbm, ⟨4, _⟩ => ⟨S40, .f32⟩
  | .hbm, ⟨5, _⟩ => ⟨S256x128, .f32⟩
  | .hbm, ⟨6, _⟩ => ⟨S128x256, .f32⟩
  | .hbm, ⟨7, _⟩ => ⟨S256x128, .f32⟩
  | .hbm, ⟨8, _⟩ => ⟨S128x256, .f32⟩
  | .hbm, ⟨9, _⟩ => ⟨S256x40, .f32⟩
  | .hbm, ⟨10, _⟩ => ⟨S_, .f32⟩
  | .hbm, ⟨11, _⟩ => ⟨S256x128, .f32⟩
  | .hbm, ⟨12, _⟩ => ⟨S_, .i32⟩
  | .hbm, ⟨13, _⟩ => ⟨S1, .i32⟩
  | .hbm, ⟨14, _⟩ => ⟨S256x128, .f32⟩
  | .hbm, ⟨15, _⟩ => ⟨S_, .f32⟩
  | .hbm, ⟨16, _⟩ => ⟨S1x128, .f32⟩
  | .hbm, ⟨17, _⟩ => ⟨S1x40, .f32⟩
  | .hbm, ⟨18, _⟩ => ⟨S_, .i32⟩
  | .hbm, ⟨19, _⟩ => ⟨S1, .i32⟩
  | .hbm, ⟨20, _⟩ => ⟨S1x128, .f32⟩
  | .hbm, ⟨21, _⟩ => ⟨S16384x128, .f32⟩
  | .hbm, ⟨22, _⟩ => ⟨S16384x40, .f32⟩
  | .local _ .vmem, ⟨0, _⟩ => ⟨S2048x2048, .f32⟩
  | .local _ .vmem, ⟨1, _⟩ => ⟨S2048x2048, .f32⟩
  | .local _ .vmem, ⟨2, _⟩ => ⟨S16384x128, .f32⟩
  | .local _ .vmem, ⟨3, _⟩ => ⟨S128x256, .f32⟩
  | .local _ .vmem, ⟨4, _⟩ => ⟨S128x256, .f32⟩
  | .local _ .vmem, ⟨5, _⟩ => ⟨S256x128, .f32⟩
  | .local _ .vmem, ⟨6, _⟩ => ⟨S1x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  v4
def k0_off1 (i : grid0.Coords) : Fin 2 → Nat :=
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_12 : BitVec 32 := 0#32
  let v23 : BitVec 1 := Scalar.cmpi .ne v22 c0_i32_12
  v23

def k0_mult2 (i : grid0.Coords) : BitVec 32 :=
  let arg0 : BitVec 32 := BitVec.ofNat 32 (i 0).val
  let c2048_i32_18 : BitVec 32 := 2048#32
  let v30 : BitVec 32 := Scalar.muli arg0 c2048_i32_18
  v30
def k0_off2 (i : grid0.Coords) : Fin 2 → Nat :=
  let arg0 : BitVec 32 := BitVec.ofNat 32 (i 0).val
  let c2048_i32_18 : BitVec 32 := 2048#32
  let v30 : BitVec 32 := Scalar.muli arg0 c2048_i32_18
  let v31 : BitVec 32 := v30
  let v32 : Index := Scalar.indexCast v31
  let c0_19 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S256x256_S256x128_0_0 : S256x256.Slices ![0, 0] S256x128
  transposes_S256x128_S128x256_1_0 : S256x128.Transposes [1, 0] S128x256
  slices_S256x256_S256x128_0_128 : S256x256.Slices ![0, 128] S256x128
  transposes_S40x256_S256x40_1_0 : S40x256.Transposes [1, 0] S256x40
  bcast_S_S256x128 : S_.BroadcastsInDim S256x128 (![] : Fin 0 → Fin S256x128.rank)
  bcast_S_S1 : S_.BroadcastsInDim S1 (![] : Fin 0 → Fin S1.rank)
  bcast_S_S1x128 : S_.BroadcastsInDim S1x128 (![] : Fin 0 → Fin S1x128.rank)
  shapeCasts_S40_S1x40 : S40.ShapeCasts S1x40
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  broadcasts_S2048x1_S2048x128 : S2048x1.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S16384x128_S16384x40_0_0 : S16384x128.Slices ![0, 0] S16384x40
  scatter_S256x128_S1_S256x40_01_n_1_0_wf : ScatterDims.WF S256x128 S1 S256x40 [0, 1] [] [1] 0
  scatter_S1x128_S1_S1x40_01_n_1_0_wf : ScatterDims.WF S1x128 S1 S1x40 [0, 1] [] [1] 0
  dot_S2048x2048_S2048x128_S2048x128_1_0_0_1_n_n_wf : DotDims.WF S2048x2048 S2048x128 S2048x128 [1] [0] [0] [1] [] []
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  k0_mult2_dvd : ∀ i : grid0.Coords, ∀ (k0_h2 : k0_cond2 i = 1#1), 2048 ∣ (k0_mult2 i).toNat
  k0_off2_inb : ∀ i : grid0.Coords, ∀ (k0_h2 : k0_cond2 i = 1#1), ∀ a, (k0_off2 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S16384x128.size a
  hwx0_6 : ∀ i : grid0.Coords, EltTy.bits .f32 = 32 ∨ (Rect.block (s := S16384x128) S2048x128.size (cc0_transform_6 i) (hinb0_6 i)).WholeWords (EltTy.packing .f32)

variable [Facts₀]

def scatter_S256x128_S1_S256x40_01_n_1_0 : ScatterDims S256x128 S1 S256x40 where
  updateWindowDims := [0, 1]
  insertedWindowDims := []
  scatterDimsToOperandDims := [1]
  indexVectorDim := 0
  wf := scatter_S256x128_S1_S256x40_01_n_1_0_wf
def scatter_S1x128_S1_S1x40_01_n_1_0 : ScatterDims S1x128 S1 S1x40 where
  updateWindowDims := [0, 1]
  insertedWindowDims := []
  scatterDimsToOperandDims := [1]
  indexVectorDim := 0
  wf := scatter_S1x128_S1_S1x40_01_n_1_0_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S256x256 : Shape := ⟨2, ![256, 256]⟩
abbrev S40x256 : Shape := ⟨2, ![40, 256]⟩
abbrev S40 : Shape := ⟨1, ![40]⟩
abbrev S_ : Shape := ⟨0, ![]⟩
abbrev S16384 : Shape := ⟨1, ![16384]⟩
abbrev S16384x1 : Shape := ⟨2, ![16384, 1]⟩
abbrev S16384x256 : Shape := ⟨2, ![16384, 256]⟩
abbrev S256x40 : Shape := ⟨2, ![256, 40]⟩
abbrev S16384x40 : Shape := ⟨2, ![16384, 40]⟩
abbrev S1x40 : Shape := ⟨2, ![1, 40]⟩

abbrev nBuf : Space → Nat
  | .hbm => 25
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S256x256, .f32⟩
  | .hbm, ⟨3, _⟩ => ⟨S40x256, .f32⟩
  | .hbm, ⟨4, _⟩ => ⟨S40, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x256, .f32⟩
  | .hbm, ⟨15, _⟩ => ⟨S256x256, .f32⟩
  | .hbm, ⟨16, _⟩ => ⟨S16384x256, .f32⟩
  | .hbm, ⟨17, _⟩ => ⟨S_, .f32⟩
  | .hbm, ⟨18, _⟩ => ⟨S16384x256, .f32⟩
  | .hbm, ⟨19, _⟩ => ⟨S16384x256, .f32⟩
  | .hbm, ⟨20, _⟩ => ⟨S256x40, .f32⟩
  | .hbm, ⟨21, _⟩ => ⟨S16384x40, .f32⟩
  | .hbm, ⟨22, _⟩ => ⟨S1x40, .f32⟩
  | .hbm, ⟨23, _⟩ => ⟨S16384x40, .f32⟩
  | .hbm, ⟨24, _⟩ => ⟨S16384x40, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  concatenates_S16384x128_S16384x128_S16384x256_d1 : Shape.Concatenates [S16384x128, S16384x128] S16384x256 1
  transposes_S256x256_S256x256_1_0 : S256x256.Transposes [1, 0] S256x256
  bcast_S_S16384x256 : S_.BroadcastsInDim S16384x256 (![] : Fin 0 → Fin S16384x256.rank)
  transposes_S40x256_S256x40_1_0 : S40x256.Transposes [1, 0] S256x40
  bcast_S40_S1x40_1 : S40.BroadcastsInDim S1x40 (![1] : Fin 1 → Fin S1x40.rank)
  bcast_S1x40_S16384x40_0_1 : S1x40.BroadcastsInDim S16384x40 (![0, 1] : Fin 2 → Fin S16384x40.rank)
  dot_S16384x16384_S16384x128_S16384x128_1_0_0_1_n_n_wf : DotDims.WF S16384x16384 S16384x128 S16384x128 [1] [0] [0] [1] [] []
  dot_S16384x256_S256x256_S16384x256_1_0_0_1_n_n_wf : DotDims.WF S16384x256 S256x256 S16384x256 [1] [0] [0] [1] [] []
  dot_S16384x256_S256x40_S16384x40_1_0_0_1_n_n_wf : DotDims.WF S16384x256 S256x40 S16384x40 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x40_S16384x40_1_0_0_1_n_n : DotDims S16384x256 S256x40 S16384x40 where
  lhsContracting := [1]
  rhsContracting := [0]
  lhsNonContracting := [0]
  rhsNonContracting := [1]
  lhsBatch := []
  rhsBatch := []
  wf := dot_S16384x256_S256x40_S16384x40_1_0_0_1_n_n_wf

class Facts : Prop extends Facts₀ where

variable [Facts]
-- ==== Proof.Pieces.lean ====
/-
  What one run of the kernel body leaves behind, read as values. The body keeps two running quantities for the
  current block of 2048 rows: the partial neighbour sums (2048 × 128) and the partial row weights (2048 × 1). At
  the first column tile it resets both to zero and adds that tile's contribution; at a later tile it adds to what
  the tile before left; at the last tile it also writes the block of results, computed from the two quantities AS
  UPDATED by that same tile. Each statement below says which pure function of the loaded blocks a buffer ends
  holding, for any float instance.
-/
import proofs.«151939_j29755533426830_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The 2048 rows of `x` that pair with column tile `k` of the adjacency block: rows `2048 k …` of the resident copy. -/
abbrev xTile (i : grid0.Coords) (x1 : Vec F S16384x128 .f32) : Vec F S2048x128 .f32 :=
  View.ld x1 (Rect.unit (s := S16384x128) (k0_off1 i) S2048x128.size (k0_off1_inb i))

/-- A later tile: the partial neighbour sums grow by this tile's product. -/
theorem acc_B (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1 .f32) (harg10 : arg10.IsWhole) (hc0 : ¬cond0_0 i) (hc1 : ¬cond0_1 i)
    (x0 : Vec F S2048x2048 .f32) (x1 : Vec F S16384x128 .f32) (x2 : Vec F S128x256 .f32) (x3 : Vec F S128x256 .f32) (x4 : Vec F S256x128 .f32) (x5 : Vec F S1x128 .f32) (xs0 : Vec F S2048x128 .f32) (xs1 : Vec F S2048x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay3 x0 (xTile i x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  rw [View.canon_unit_zero hz]
  simp only [View.readAt_eq_ld, harg2.read_unread, harg3.read_unread, harg9.read_unread, View.ld_unit_zero (S := S2048x2048) hz,
    View.ld_unit_zero (S := S2048x128) hz]

/-- A later tile: the partial row weights grow by this tile's row sums. -/
theorem deg_B (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1 .f32) (harg10 : arg10.IsWhole) (hc0 : ¬cond0_0 i) (hc1 : ¬cond0_1 i)
    (x0 : Vec F S2048x2048 .f32) (x1 : Vec F S16384x128 .f32) (x2 : Vec F S128x256 .f32) (x3 : Vec F S128x256 .f32) (x4 : Vec F S256x128 .f32) (x5 : Vec F S1x128 .f32) (xs0 : Vec F S2048x128 .f32) (xs1 : Vec F S2048x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  rw [View.canon_unit_zero hz]
  simp only [View.readAt_eq_ld, harg2.read_unread, harg10.read_unread, View.ld_unit_zero (S := S2048x2048) hz,
    View.ld_unit_zero (S := S2048x1) hz]

/-- The first tile: the partial neighbour sums are reset to zero, then grow by this tile's product. -/
theorem acc_A (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1 .f32) (harg10 : arg10.IsWhole) (hc0 : cond0_0 i) (hc1 : ¬cond0_1 i)
    (x0 : Vec F S2048x2048 .f32) (x1 : Vec F S16384x128 .f32) (x2 : Vec F S128x256 .f32) (x3 : Vec F S128x256 .f32) (x4 : Vec F S256x128 .f32) (x5 : Vec F S1x128 .f32) :
    sout0_A_0 c i arg2 harg2 arg3 harg3 arg4 harg4 arg5 harg5 arg6 harg6 arg7 harg7 arg8 harg8 arg9 harg9 arg10 harg10 hc0 hc1 x0 x1 x2 x3 x4 x5 = k0_pay3 x0 (xTile i x1) k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S2048x128) hz, View.readCov_unit_zero (S := S2048x128) _ hz]
  simp only [View.readAt_eq_ld, harg2.read_unread, harg3.read_unread, View.ld_unit_zero (S := S2048x2048) hz]
  rfl

/-- The first tile: the partial row weights are reset to zero, then grow by this tile's row sums. -/
theorem deg_A (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1 .f32) (harg10 : arg10.IsWhole) (hc0 : cond0_0 i) (hc1 : ¬cond0_1 i)
    (x0 : Vec F S2048x2048 .f32) (x1 : Vec F S16384x128 .f32) (x2 : Vec F S128x256 .f32) (x3 : Vec F S128x256 .f32) (x4 : Vec F S256x128 .f32) (x5 : Vec F S1x128 .f32) :
    sout0_A_1 c i arg2 harg2 arg3 harg3 arg4 harg4 arg5 harg5 arg6 harg6 arg7 harg7 arg8 harg8 arg9 harg9 arg10 harg10 hc0 hc1 x0 x1 x2 x3 x4 x5 = k0_pay4 x0 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S2048x1) hz, View.readCov_unit_zero (S := S2048x1) _ hz]
  simp only [View.readAt_eq_ld, harg2.read_unread, View.ld_unit_zero (S := S2048x2048) hz]

/-- The 2048 rows of `x` that are the current row block's own features: rows `2048 i …` of the resident copy. -/
abbrev xRows (i : grid0.Coords) (h : k0_cond2 i = 1#1) (x1 : Vec F S16384x128 .f32) : Vec F S2048x128 .f32 :=
  View.ld x1 (Rect.unit (s := S16384x128) (k0_off2 i) S2048x128.size (k0_off2_inb i h))

/-- The last tile: the partial neighbour sums grow as at any later tile. -/
theorem acc_C (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1 .f32) (harg10 : arg10.IsWhole) (hc0 : ¬cond0_0 i) (hc1 : cond0_1 i)
    (x0 : Vec F S2048x2048 .f32) (x1 : Vec F S16384x128 .f32) (x2 : Vec F S128x256 .f32) (x3 : Vec F S128x256 .f32) (x4 : Vec F S256x128 .f32) (x5 : Vec F S1x128 .f32) (xs0 : Vec F S2048x128 .f32) (xs1 : Vec F S2048x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay3 x0 (xTile i x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg9.read_unread, View.ld_unit_zero (S := S2048x2048) hz,
    View.ld_unit_zero (S := S2048x128) hz]
  rfl

/-- The last tile: the partial row weights grow as at any later tile. -/
theorem deg_C (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1 .f32) (harg10 : arg10.IsWhole) (hc0 : ¬cond0_0 i) (hc1 : cond0_1 i)
    (x0 : Vec F S2048x2048 .f32) (x1 : Vec F S16384x128 .f32) (x2 : Vec F S128x256 .f32) (x3 : Vec F S128x256 .f32) (x4 : Vec F S256x128 .f32) (x5 : Vec F S1x128 .f32) (xs0 : Vec F S2048x128 .f32) (xs1 : Vec F S2048x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg10.read_unread, View.ld_unit_zero (S := S2048x2048) hz,
    View.ld_unit_zero (S := S2048x1) hz]

/-- The last tile: the block of results is computed from the two running quantities as this tile has just updated them,
    the row block's own features, and the four prepared parameter arrays. -/
theorem out_C (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x1 .f32) (harg10 : arg10.IsWhole) (hc0 : ¬cond0_0 i) (hc1 : cond0_1 i)
    (x0 : Vec F S2048x2048 .f32) (x1 : Vec F S16384x128 .f32) (x2 : Vec F S128x256 .f32) (x3 : Vec F S128x256 .f32) (x4 : Vec F S256x128 .f32) (x5 : Vec F S1x128 .f32) (xs0 : Vec F S2048x128 .f32) (xs1 : Vec F S2048x1 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay5 (k0_pay4 x0 xs1) (k0_pay3 x0 (xTile i x1) xs0) (xRows i hc1 x1) x2 x3 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz, View.readCov_unit_zero (S := S2048x128) _ hz, View.readCov_unit_zero (S := S2048x1) _ hz]
  simp only [View.readAt_eq_ld, harg2.read_unread, harg3.read_unread, harg4.read_unread, harg5.read_unread, harg6.read_unread,
    harg7.read_unread, harg9.read_unread, harg10.read_unread, View.ld_unit_zero (S := S2048x2048) hz,
    View.ld_unit_zero (S := S2048x128) hz, View.ld_unit_zero (S := S2048x1) hz, View.ld_unit_zero (S := S128x256) hz,
    View.ld_unit_zero (S := S256x128) hz, View.ld_unit_zero (S := S1x128) hz]
  rfl

end Cert.KernelIdeal.Pieces

end
-- ==== Proof.State.lean ====
/-
  The two running quantities and the result block after each grid point, as pure functions of the blocks the point
  loads and of what the point before left. Point `t` of the 8 × 8 grid is row block `t / 8`, column tile `t % 8`:
  at tile 0 the quantities restart from zero, at a later tile they continue from the previous point, and at tile 7
  the result block is computed from the quantities as point `t` itself leaves them.
-/
import proofs.«151939_j29755533426830_2_alg».proof.Proof.Gen.KernelIdeal.Frame
import Idealize.ShloMosaic.Lib.Pipeline.Value
import Idealize.ShloMosaic.Lib.Tactic
import proofs.«151939_j29755533426830_2_alg».proof.Proof.Pieces

set_option maxRecDepth 16384

noncomputable section

namespace Cert.KernelIdeal.State

open Idealize.ShloMosaic Idealize.ShloMosaic.TcCoe Idealize.SL.Sem
open Cert.KernelIdeal Cert.KernelIdeal.Gen

variable {F : FTy → Type} [FloatOps F]

open Cert.KernelIdeal.Pieces

variable (m : (ℓ : Loc nD τ sig) → Buf (Elt F) ℓ)

/-- The adjacency tile point `t` loads. -/
abbrev adjBlk (c : Dev nD) (t : Fin cfg0.N) : Vec F S2048x2048 .f32 := iblk m c 0 t
/-- The resident copy of `x` at point `t`. -/
abbrev xAll (c : Dev nD) (t : Fin cfg0.N) : Vec F S16384x128 .f32 := iblk m c 1 t
/-- The partial neighbour sums point `t` leaves. -/
abbrev accAt (c : Dev nD) (t : Fin cfg0.N) : Vec F S2048x128 .f32 := (outsAt0 m c t.val t.isLt).2.1
/-- The partial row weights point `t` leaves. -/
abbrev degAt (c : Dev nD) (t : Fin cfg0.N) : Vec F S2048x1 .f32 := (outsAt0 m c t.val t.isLt).2.2

/-- At column tile 0 the neighbour sums restart: zero plus this tile's product. -/
theorem acc_first (c : Dev nD) (t : Fin cfg0.N) (h0 : t.val % 8 = 0) :
    accAt m c t = k0_pay3 (adjBlk m c t) (xTile (grid0.coords t) (xAll m c t)) k0_pay1 := by
  have h1 : ¬ t.val % 8 = 7 := by omega
  unfold accAt
  rw [outsAt0_A m c t h0 h1]
  dsimp only
  exact acc_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At column tile 0 the row weights restart: zero plus this tile's row sums. -/
theorem deg_first (c : Dev nD) (t : Fin cfg0.N) (h0 : t.val % 8 = 0) :
    degAt m c t = k0_pay4 (adjBlk m c t) k0_pay2 := by
  have h1 : ¬ t.val % 8 = 7 := by omega
  unfold degAt
  rw [outsAt0_A m c t h0 h1]
  dsimp only
  exact deg_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At a later column tile the neighbour sums continue from the point before. -/
theorem acc_next (c : Dev nD) (t : Fin cfg0.N) (h0 : ¬ t.val % 8 = 0) :
    accAt m c t = k0_pay3 (adjBlk m c t) (xTile (grid0.coords t) (xAll m c t)) (outsAt0 m c (t.val - 1) (Nat.lt_of_le_of_lt (Nat.sub_le _ _) t.isLt)).2.1 := by
  unfold accAt
  by_cases h1 : t.val % 8 = 7
  · rw [outsAt0_C m c t h0 h1]
    dsimp only
    exact acc_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact acc_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-- At a later column tile the row weights continue from the point before. -/
theorem deg_next (c : Dev nD) (t : Fin cfg0.N) (h0 : ¬ t.val % 8 = 0) :
    degAt m c t = k0_pay4 (adjBlk m c t) (outsAt0 m c (t.val - 1) (Nat.lt_of_le_of_lt (Nat.sub_le _ _) t.isLt)).2.2 := by
  unfold degAt
  by_cases h1 : t.val % 8 = 7
  · rw [outsAt0_C m c t h0 h1]
    dsimp only
    exact deg_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact deg_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-- At column tile 7 the result block is computed from the two quantities as this point leaves them. -/
theorem out_last (c : Dev nD) (t : Fin cfg0.N) (h1 : t.val % 8 = 7) :
    (outsAt0 m c t.val t.isLt).1
      = k0_pay5 (degAt m c t) (accAt m c t) (xRows (grid0.coords t) ((hcond0_1 t).mpr h1) (xAll m c t))
          (iblk m c 2 t) (iblk m c 3 t) (iblk m c 4 t) (iblk m c 5 t) := by
  have h0 : ¬ t.val % 8 = 0 := by omega
  unfold accAt degAt
  rw [outsAt0_C m c t h0 h1]
  dsimp only
  rw [acc_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    deg_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2]
  exact out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.State

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.Spec.lean ====
/-
  The mathematics of one GraphSAGE layer with a linear classifier, over the extended reals.

  For node `r` with feature row `x r` (128 features) and a dense adjacency row `a r` over all 16384 nodes:
    agg r n   = ∑_q a r q · x q n                         (the neighbour sum, feature n)
    d r       = ∑_q a r q                                 (the row's weight; the layer divides by d r + 1)
    h r e     = ∑_{j<128} x r j · W e j + ∑_{j<128} (agg r j / (d r + 1)) · W e (128 + j)     (the projection of [x ; neigh])
    out r c   = ∑_{e<256} max (h r e) 0 · M c e + b c
  `outRow` is one output entry as a function of the row's data; `G` is the whole [16384, 40] result.
  Two regroupings of finite sums in a commutative monoid (no finiteness of the terms is used): a sum over
  16384 = 8 · 2048 positions is the sum over 8 tiles of the tiles' sums, and a sum over 256 = 128 + 128 positions
  is the sum of its two halves.
-/
import Mathlib.Data.EReal.Basic
import Mathlib.Algebra.BigOperators.Fin
import Mathlib.Tactic
import Idealize.ShloMosaic.PureOps.Ideal
import Idealize.ShloMosaic.Lib.ValueIdx

noncomputable section

namespace Cert.Sage

open Idealize.ShloMosaic Idealize.ShloMosaic.ValueIdx

/-- A sum over `16384 = 8 · 2048` positions, tile by tile: position `q` of tile `k` is `2048 k + q`. -/
theorem sum_tiles_fin {M : Type*} [AddCommMonoid M] (f : Fin 16384 → M) :
    ∑ i : Fin 16384, f i
      = ∑ k : Fin 8, ∑ q : Fin 2048, f ⟨2048 * k.val + q.val, by have := k.isLt; have := q.isLt; omega⟩ := by
  have h := (Equiv.sum_comp (finProdFinEquiv (m := 8) (n := 2048)) (fun i : Fin (8 * 2048) => f i)).symm
  refine h.trans ?_
  rw [Fintype.sum_prod_type]
  refine Finset.sum_congr rfl fun k _ => Finset.sum_congr rfl fun q _ => ?_
  exact congrArg f (Fin.ext (by show q.val + 2048 * k.val = 2048 * k.val + q.val; omega))

/-- A sum over `256 = 128 + 128` positions is the sum of its two halves. -/
theorem sum_halves_fin {M : Type*} [AddCommMonoid M] (f : Fin 256 → M) :
    ∑ j : Fin 256, f j
      = (∑ j : Fin 128, f ⟨j.val, by have := j.isLt; omega⟩) + ∑ j : Fin 128, f ⟨128 + j.val, by have := j.isLt; omega⟩ :=
  Fin.sum_univ_add (a := 128) (b := 128) (fun i : Fin (128 + 128) => f i)

/-- The neighbour sum of node `r`, feature `n`. -/
def agg (X : (⟨2, ![16384, 128]⟩ : Shape).Idx → EReal) (A : (⟨2, ![16384, 16384]⟩ : Shape).Idx → EReal)
    (r : Fin 16384) (n : Fin 128) : EReal :=
  ∑ q : Fin 16384, A (ix2 r q) * X (ix2 q n)

/-- The weight of node `r`'s adjacency row. -/
def rowsum (A : (⟨2, ![16384, 16384]⟩ : Shape).Idx → EReal) (r : Fin 16384) : EReal :=
  ∑ q : Fin 16384, A (ix2 r q)

/-- One output entry from the row's data: the node's features `xr`, its neighbour sums `ar`, its row weight `d`, the two
    halves `wx`, `wn` of the projection read as (input feature, hidden unit), the classifier's column `wm` and bias `b`. -/
def outRow (xr ar : Fin 128 → EReal) (d : EReal) (wx wn : Fin 128 → Fin 256 → EReal) (wm : Fin 256 → EReal) (b : EReal) : EReal :=
  (∑ e : Fin 256,
      max ((∑ j : Fin 128, xr j * wx j e)
            + ∑ j : Fin 128, Ideal.div (ar j) (d + Ideal.ofBits .f32 0x3F800000#32) * wn j e)
          (Ideal.ofBits .f32 0x00000000#32)
        * wm e)
    + b

/-- The layer's result: entry `(r, c)` from node `r`'s data, the projection `W` (hidden unit, input feature) split at
    feature 128, and class `c`'s classifier row and bias. -/
def G (X : (⟨2, ![16384, 128]⟩ : Shape).Idx → EReal) (A : (⟨2, ![16384, 16384]⟩ : Shape).Idx → EReal)
    (W : (⟨2, ![256, 256]⟩ : Shape).Idx → EReal) (M : (⟨2, ![40, 256]⟩ : Shape).Idx → EReal)
    (B : (⟨1, ![40]⟩ : Shape).Idx → EReal) : (⟨2, ![16384, 40]⟩ : Shape).Idx → EReal := fun i =>
  outRow (fun j => X (ix2 (i 0) j)) (fun j => agg X A (i 0) j) (rowsum A (i 0))
    (fun j e => W (ix2 e ⟨j.val, by have := j.isLt; omega⟩))
    (fun j e => W (ix2 e ⟨128 + j.val, by have := j.isLt; omega⟩))
    (fun e => M (ix2 (i 1) e)) (B (ix1 (i 1)))

/-- The neighbour sum of a node in row block `i`, gathered tile by tile. -/
theorem agg_tiles (X : (⟨2, ![16384, 128]⟩ : Shape).Idx → EReal) (A : (⟨2, ![16384, 16384]⟩ : Shape).Idx → EReal)
    (r : Fin 16384) (n : Fin 128) :
    agg X A r n = ∑ k : Fin 8, ∑ q : Fin 2048,
      A (ix2 r ⟨2048 * k.val + q.val, by have := k.isLt; have := q.isLt; omega⟩)
        * X (ix2 ⟨2048 * k.val + q.val, by have := k.isLt; have := q.isLt; omega⟩ n) :=
  sum_tiles_fin fun q => A (ix2 r q) * X (ix2 q n)

/-- The row weight of a node, gathered tile by tile. -/
theorem rowsum_tiles (A : (⟨2, ![16384, 16384]⟩ : Shape).Idx → EReal) (r : Fin 16384) :
    rowsum A r = ∑ k : Fin 8, ∑ q : Fin 2048,
      A (ix2 r ⟨2048 * k.val + q.val, by have := k.isLt; have := q.isLt; omega⟩) :=
  sum_tiles_fin fun q => A (ix2 r q)

end Cert.Sage

end
-- ==== Proof.Payload.lean ====
/-
  The body's arithmetic at one entry, over the extended reals. With `a` the 2048×2048 adjacency tile and `xk` the
  matching 2048 rows of `x`:
    the neighbour-sum update at (p, n) is the old value plus ∑_q a[p, q] · xk[q, n];
    the row-weight update at (p, 0) is the old value plus ∑_q a[p, q];
    the result block at (p, c) is the layer's output entry (`Cert.Sage.outRow`) of row p's data: its own features,
    its neighbour sums, its row weight, the two projection halves, the classifier's column c and bias entry c.
-/
import proofs.«151939_j29755533426830_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws
import proofs.«151939_j29755533426830_2_alg».proof.Proof.LibKeepdims
import proofs.«151939_j29755533426830_2_alg».proof.Proof.Spec

set_option maxRecDepth 16384

noncomputable section

namespace Cert.KernelIdeal.Payload

open Idealize.ShloMosaic Idealize.ShloMosaic.TcCoe Idealize.SL.Sem
open Cert.KernelIdeal Cert.KernelIdeal.Gen

variable {F : FTy → Type} [FloatOps F]

open Idealize.ShloMosaic.ValueIdx

theorem mm_tile_l0 (i : S2048x128.Idx) (q : dot_S2048x2048_S2048x128_S2048x128_1_0_0_1_n_n.contr.Idx) : (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem mm_tile_r1 (i : S2048x128.Idx) (q : dot_S2048x2048_S2048x128_S2048x128_1_0_0_1_n_n.contr.Idx) : (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The product of a 2048×2048 block with a 2048×128 block into a zero accumulator, at entry (p, n): the sum over the 2048 inner positions. -/
theorem mm_tile (l : FVec Ideal S2048x2048 .f32) (r : FVec Ideal S2048x128 .f32) (p : Fin 2048) (n : Fin 128) :
    matmul (F := Ideal) dot_S2048x2048_S2048x128_S2048x128_1_0_0_1_n_n (some .fp32) l r (constant (F := Ideal) S2048x128 .f32 0x00000000#32) (ix2 p n)
      = ∑ q : Fin 2048, l (ix2 p q) * r (ix2 q n) := by
  simp only [matmul]
  rw [Ideal.matmul_constant_zero_apply, ← Equiv.sum_comp (ValueIdx.contrEquiv1 dot_S2048x2048_S2048x128_S2048x128_1_0_0_1_n_n 2048 rfl rfl).symm]
  refine Finset.sum_congr rfl fun q _ => ?_
  have hq := ValueIdx.contrEquiv1_symm_val dot_S2048x2048_S2048x128_S2048x128_1_0_0_1_n_n 2048 rfl rfl q
  have el : dot_S2048x2048_S2048x128_S2048x128_1_0_0_1_n_n.lhsIdx (ix2 p n) ((ValueIdx.contrEquiv1 dot_S2048x2048_S2048x128_S2048x128_1_0_0_1_n_n 2048 rfl rfl).symm q) = ix2 p q := funext fun a => Fin.ext (by
    match a with
    | ⟨0, _⟩ => exact mm_tile_l0 _ _
    | ⟨1, _⟩ => exact (dot_S2048x2048_S2048x128_S2048x128_1_0_0_1_n_n.lhsIdx_val_of_single rfl _ _).trans hq)
  have er : dot_S2048x2048_S2048x128_S2048x128_1_0_0_1_n_n.rhsIdx (ix2 p n) ((ValueIdx.contrEquiv1 dot_S2048x2048_S2048x128_S2048x128_1_0_0_1_n_n 2048 rfl rfl).symm q) = ix2 q n := funext fun a => Fin.ext (by
    match a with
    | ⟨0, _⟩ => exact (dot_S2048x2048_S2048x128_S2048x128_1_0_0_1_n_n.rhsIdx_val_of_single rfl _ _).trans hq
    | ⟨1, _⟩ => exact mm_tile_r1 _ _)
  rw [el, er]

theorem mm_proj_l0 (i : S2048x256.Idx) (q : dot_S2048x128_S128x256_S2048x256_1_0_0_1_n_n.contr.Idx) : (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem mm_proj_r1 (i : S2048x256.Idx) (q : dot_S2048x128_S128x256_S2048x256_1_0_0_1_n_n.contr.Idx) : (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The product of a 2048×128 block with a 128×256 block into a zero accumulator, at entry (p, n): the sum over the 128 inner positions. -/
theorem mm_proj (l : FVec Ideal S2048x128 .f32) (r : FVec Ideal S128x256 .f32) (p : Fin 2048) (n : Fin 256) :
    matmul (F := Ideal) dot_S2048x128_S128x256_S2048x256_1_0_0_1_n_n (some .fp32) l r (constant (F := Ideal) S2048x256 .f32 0x00000000#32) (ix2 p n)
      = ∑ q : Fin 128, l (ix2 p q) * r (ix2 q n) := by
  simp only [matmul]
  rw [Ideal.matmul_constant_zero_apply, ← Equiv.sum_comp (ValueIdx.contrEquiv1 dot_S2048x128_S128x256_S2048x256_1_0_0_1_n_n 128 rfl rfl).symm]
  refine Finset.sum_congr rfl fun q _ => ?_
  have hq := ValueIdx.contrEquiv1_symm_val dot_S2048x128_S128x256_S2048x256_1_0_0_1_n_n 128 rfl rfl q
  have el : dot_S2048x128_S128x256_S2048x256_1_0_0_1_n_n.lhsIdx (ix2 p n) ((ValueIdx.contrEquiv1 dot_S2048x128_S128x256_S2048x256_1_0_0_1_n_n 128 rfl rfl).symm q) = ix2 p q := funext fun a => Fin.ext (by
    match a with
    | ⟨0, _⟩ => exact mm_proj_l0 _ _
    | ⟨1, _⟩ => exact (dot_S2048x128_S128x256_S2048x256_1_0_0_1_n_n.lhsIdx_val_of_single rfl _ _).trans hq)
  have er : dot_S2048x128_S128x256_S2048x256_1_0_0_1_n_n.rhsIdx (ix2 p n) ((ValueIdx.contrEquiv1 dot_S2048x128_S128x256_S2048x256_1_0_0_1_n_n 128 rfl rfl).symm q) = ix2 q n := funext fun a => Fin.ext (by
    match a with
    | ⟨0, _⟩ => exact (dot_S2048x128_S128x256_S2048x256_1_0_0_1_n_n.rhsIdx_val_of_single rfl _ _).trans hq
    | ⟨1, _⟩ => exact mm_proj_r1 _ _)
  rw [el, er]

theorem mm_cls_l0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem mm_cls_r1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product of a 2048×256 block with a 256×128 block into a zero accumulator, at entry (p, n): the sum over the 256 inner positions. -/
theorem mm_cls (l : FVec Ideal S2048x256 .f32) (r : FVec Ideal S256x128 .f32) (p : Fin 2048) (n : Fin 128) :
    matmul (F := Ideal) dot_S2048x256_S256x128_S2048x128_1_0_0_1_n_n (some .fp32) l r (constant (F := Ideal) S2048x128 .f32 0x00000000#32) (ix2 p n)
      = ∑ q : Fin 256, l (ix2 p q) * r (ix2 q n) := by
  simp only [matmul]
  rw [Ideal.matmul_constant_zero_apply, ← Equiv.sum_comp (ValueIdx.contrEquiv1 dot_S2048x256_S256x128_S2048x128_1_0_0_1_n_n 256 rfl rfl).symm]
  refine Finset.sum_congr rfl fun q _ => ?_
  have hq := ValueIdx.contrEquiv1_symm_val dot_S2048x256_S256x128_S2048x128_1_0_0_1_n_n 256 rfl rfl q
  have el : dot_S2048x256_S256x128_S2048x128_1_0_0_1_n_n.lhsIdx (ix2 p n) ((ValueIdx.contrEquiv1 dot_S2048x256_S256x128_S2048x128_1_0_0_1_n_n 256 rfl rfl).symm q) = ix2 p q := funext fun a => Fin.ext (by
    match a with
    | ⟨0, _⟩ => exact mm_cls_l0 _ _
    | ⟨1, _⟩ => exact (dot_S2048x256_S256x128_S2048x128_1_0_0_1_n_n.lhsIdx_val_of_single rfl _ _).trans hq)
  have er : dot_S2048x256_S256x128_S2048x128_1_0_0_1_n_n.rhsIdx (ix2 p n) ((ValueIdx.contrEquiv1 dot_S2048x256_S256x128_S2048x128_1_0_0_1_n_n 256 rfl rfl).symm q) = ix2 q n := funext fun a => Fin.ext (by
    match a with
    | ⟨0, _⟩ => exact (dot_S2048x256_S256x128_S2048x128_1_0_0_1_n_n.rhsIdx_val_of_single rfl _ _).trans hq
    | ⟨1, _⟩ => exact mm_cls_r1 _ _)
  rw [el, er]

/-- The neighbour-sum update at an entry. -/
theorem pay3_apply (v3 : FVec Ideal S2048x2048 .f32) (v7 v8 : FVec Ideal S2048x128 .f32) (p : Fin 2048) (n : Fin 128) :
    k0_pay3 (F := Ideal) v3 v7 v8 (ix2 p n) = v8 (ix2 p n) + ∑ q : Fin 2048, v3 (ix2 p q) * v7 (ix2 q n) := by
  unfold k0_pay3
  refine (congrFun (shapeCast_self _ _) _).trans ?_
  exact congrArg (v8 (ix2 p n) + ·) (mm_tile v3 v7 p n)

/-- The row-weight update at an entry. -/
theorem pay4_apply (v3 : FVec Ideal S2048x2048 .f32) (v14 : FVec Ideal S2048x1 .f32) (p : Fin 2048) :
    k0_pay4 (F := Ideal) v3 v14 (ix2 p (0 : Fin 1)) = v14 (ix2 p (0 : Fin 1)) + ∑ q : Fin 2048, v3 (ix2 p q) := by
  unfold k0_pay4
  refine (congrFun (shapeCast_self _ _) _).trans ?_
  refine congrArg (v14 (ix2 p (0 : Fin 1)) + ·) ?_
  refine (shapeCast_a_a1_apply _ shapeCasts_S2048_S2048x1 p (0 : Fin 1)).trans ?_
  refine (Ideal.multiReduction_add_single v3 0x00000000#32 reduces_S2048x2048_S2048 (.inl rfl) rfl (ix1 p)).trans ?_
  exact Finset.sum_congr rfl fun q _ => congrArg v3 (funext fun a => Fin.ext (by
    match a with
    | ⟨0, _⟩ => rfl
    | ⟨1, _⟩ => rfl))

/-- The result block at an entry: the layer's output entry of row `p`'s data and column `c`'s classifier data. -/
theorem pay5_apply (v24 : FVec Ideal S2048x1 .f32) (v27 v33 : FVec Ideal S2048x128 .f32) (v34 v37 : FVec Ideal S128x256 .f32)
    (v43 : FVec Ideal S256x128 .f32) (v46 : FVec Ideal S1x128 .f32) (p : Fin 2048) (c : Fin 128) :
    k0_pay5 (F := Ideal) v24 v27 v33 v34 v37 v43 v46 (ix2 p c)
      = Cert.Sage.outRow (fun j => v33 (ix2 p j)) (fun j => v27 (ix2 p j)) (v24 (ix2 p (0 : Fin 1)))
          (fun j e => v34 (ix2 j e)) (fun j e => v37 (ix2 j e)) (fun e => v43 (ix2 e c)) (v46 (ix2 (0 : Fin 1) c)) := by
  unfold k0_pay5 Cert.Sage.outRow
  simp only [shapeCast_self]
  refine congrArg₂ (· + ·) ?_ (broadcastTo_1b_ab_apply v46 broadcasts_S1x128_S2048x128 p c)
  refine (mm_cls _ v43 p c).trans (Finset.sum_congr rfl fun e _ => ?_)
  refine congrArg (· * v43 (ix2 e c)) ?_
  refine congrArg (max · (Ideal.ofBits .f32 0x00000000#32)) ?_
  refine congrArg₂ (· + ·) (mm_proj v33 v34 p e) ?_
  refine (mm_proj _ v37 p e).trans (Finset.sum_congr rfl fun j _ => ?_)
  refine congrArg (· * v37 (ix2 j e)) ?_
  refine congrArg (Ideal.div (v27 (ix2 p j))) ?_
  exact broadcastTo_a1_ab_apply _ broadcasts_S2048x1_S2048x128 p j

end Cert.KernelIdeal.Payload

end
-- ==== Proof.Accum.lean ====
/-
  The running quantities in closed form. Write point `t = 8 i + k` (row block `i`, column tile `k`), `A` for the
  adjacency and `X` for the features as the kernel finds them. After point `t`, entry (p, j) of the partial
  neighbour sums is ∑_{k' ≤ k} ∑_{q < 2048} A[2048 i + p, 2048 k' + q] · X[2048 k' + q, j], and entry (p, 0) of the partial
  row weights is ∑_{k' ≤ k} ∑_{q < 2048} A[2048 i + p, 2048 k' + q]: by induction on the point, the zero the quantities
  restart from at tile 0 adding nothing. At `k = 7` these are the whole neighbour sum and the whole row weight.
-/
import proofs.«151939_j29755533426830_2_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws
import proofs.«151939_j29755533426830_2_alg».proof.Proof.State
import proofs.«151939_j29755533426830_2_alg».proof.Proof.Payload

set_option maxRecDepth 16384

noncomputable section

namespace Cert.KernelIdeal.Accum

open Idealize.ShloMosaic Idealize.ShloMosaic.TcCoe Idealize.SL.Sem
open Cert.KernelIdeal Cert.KernelIdeal.Gen

variable {F : FTy → Type} [FloatOps F]

open Idealize.ShloMosaic.ValueIdx
open Cert.KernelIdeal.Pieces Cert.KernelIdeal.Payload Cert.KernelIdeal.State

variable (m : (ℓ : Loc nD τ sig) → Buf (Elt Ideal) ℓ)

/-- The adjacency as the kernel finds it. -/
abbrev Aarr (c : Dev nD) : S16384x16384.Idx → EReal := V m c main_arg1
/-- The features as the kernel finds them. -/
abbrev Xarr (c : Dev nD) : S16384x128.Idx → EReal := V m c main_arg0

/-! ## Where the blocks sit -/

/-- The adjacency tile of point `t` is block (t / 8, t % 8). -/
theorem idx_adj : ∀ t : Fin cfg0.N, win0_0.index t (0 : Fin 2) = t.val / 8 ∧ win0_0.index t (1 : Fin 2) = t.val % 8 :=
  (by decide +kernel : ∀ t : Fin grid0.N, _)
/-- The copy of `x` is the whole array at every point. -/
theorem idx_x : ∀ t : Fin cfg0.N, win0_1.index t (0 : Fin 2) = 0 ∧ win0_1.index t (1 : Fin 2) = 0 :=
  (by decide +kernel : ∀ t : Fin grid0.N, _)
/-- The rows of `x` that pair with column tile `t % 8` start at row 2048 (t % 8). -/
theorem off_tile : ∀ t : Fin cfg0.N, k0_off1 (grid0.coords t) (0 : Fin 2) = 2048 * (t.val % 8) ∧ k0_off1 (grid0.coords t) (1 : Fin 2) = 0 :=
  (by decide +kernel : ∀ t : Fin grid0.N, _)
/-- The rows of `x` that are row block `t / 8`'s own start at row 2048 (t / 8). -/
theorem off_rows : ∀ t : Fin cfg0.N, k0_off2 (grid0.coords t) (0 : Fin 2) = 2048 * (t.val / 8) ∧ k0_off2 (grid0.coords t) (1 : Fin 2) = 0 :=
  (by decide +kernel : ∀ t : Fin grid0.N, _)

/-- Entry (p, q) of the adjacency tile of point `8 i + k` is A[2048 i + p, 2048 k + q]. -/
theorem adj_blk (c : Dev nD) (t : Fin cfg0.N) (i k : ℕ) (hi : i < 8) (hk : k < 8) (e : t.val = 8 * i + k) (p q : Fin 2048) :
    adjBlk m c t (ix2 p q)
      = (Aarr m c) (ix2 ⟨2048 * i + p.val, by have := p.isLt; omega⟩ ⟨2048 * k + q.val, by have := q.isLt; omega⟩) := by
  obtain ⟨e0, e1⟩ := idx_adj t
  unfold adjBlk iblk
  rw [View.read_apply]
  show (Aarr m c) _ = _
  refine congrArg (Aarr m c) (funext fun a => Fin.ext ?_)
  match a with
  | ⟨0, _⟩ => show win0_0.index t (0 : Fin 2) * 2048 + 1 * p.val = 2048 * i + p.val; omega
  | ⟨1, _⟩ => show win0_0.index t (1 : Fin 2) * 2048 + 1 * q.val = 2048 * k + q.val; omega

/-- The copy of `x` reads `x`. -/
theorem x_blk (c : Dev nD) (t : Fin cfg0.N) (r : Fin 16384) (n : Fin 128) :
    xAll m c t (ix2 r n) = (Xarr m c) (ix2 r n) := by
  obtain ⟨e0, e1⟩ := idx_x t
  unfold xAll iblk
  rw [View.read_apply]
  show (Xarr m c) _ = _
  refine congrArg (Xarr m c) (funext fun a => Fin.ext ?_)
  match a with
  | ⟨0, _⟩ => show win0_1.index t (0 : Fin 2) * 16384 + 1 * r.val = r.val; omega
  | ⟨1, _⟩ => show win0_1.index t (1 : Fin 2) * 128 + 1 * n.val = n.val; omega

/-- Row `q` of the rows paired with column tile `k` is row `2048 k + q`. -/
theorem xTile_apply (t : Fin cfg0.N) (x1 : Vec Ideal S16384x128 .f32) (k : ℕ) (hk : k < 8) (e : t.val % 8 = k)
    (q : Fin 2048) (n : Fin 128) :
    xTile (F := Ideal) (grid0.coords t) x1 (ix2 q n) = x1 (ix2 ⟨2048 * k + q.val, by have := q.isLt; omega⟩ n) := by
  obtain ⟨e0, e1⟩ := off_tile t
  show x1 ((Rect.unit (s := S16384x128) (k0_off1 (grid0.coords t)) S2048x128.size (k0_off1_inb (grid0.coords t))).idx (ix2 q n)) = _
  refine congrArg x1 (funext fun a => Fin.ext ?_)
  match a with
  | ⟨0, _⟩ => show k0_off1 (grid0.coords t) (0 : Fin 2) + 1 * q.val = 2048 * k + q.val; omega
  | ⟨1, _⟩ => show k0_off1 (grid0.coords t) (1 : Fin 2) + 1 * n.val = n.val; omega

/-- Row `p` of row block `i`'s own rows is row `2048 i + p`. -/
theorem xRows_apply (t : Fin cfg0.N) (h : k0_cond2 (grid0.coords t) = 1#1) (x1 : Vec Ideal S16384x128 .f32) (i : ℕ) (hi : i < 8)
    (e : t.val / 8 = i) (p : Fin 2048) (n : Fin 128) :
    xRows (F := Ideal) (grid0.coords t) h x1 (ix2 p n) = x1 (ix2 ⟨2048 * i + p.val, by have := p.isLt; omega⟩ n) := by
  obtain ⟨e0, e1⟩ := off_rows t
  show x1 ((Rect.unit (s := S16384x128) (k0_off2 (grid0.coords t)) S2048x128.size (k0_off2_inb (grid0.coords t) h)).idx (ix2 p n)) = _
  refine congrArg x1 (funext fun a => Fin.ext ?_)
  match a with
  | ⟨0, _⟩ => show k0_off2 (grid0.coords t) (0 : Fin 2) + 1 * p.val = 2048 * i + p.val; omega
  | ⟨1, _⟩ => show k0_off2 (grid0.coords t) (1 : Fin 2) + 1 * n.val = n.val; omega

/-! ## One tile's contribution -/

/-- Column tile `k`'s contribution to the neighbour sum of row `2048 i + p`, feature `n`. -/
def tileAgg (c : Dev nD) (i k : ℕ) (hi : i < 8) (hk : k < 8) (p : Fin 2048) (n : Fin 128) : EReal :=
  ∑ q : Fin 2048,
    (Aarr m c) (ix2 ⟨2048 * i + p.val, by have := p.isLt; omega⟩ ⟨2048 * k + q.val, by have := q.isLt; omega⟩)
      * (Xarr m c) (ix2 ⟨2048 * k + q.val, by have := q.isLt; omega⟩ n)

/-- Column tile `k`'s contribution to the row weight of row `2048 i + p`. -/
def tileDeg (c : Dev nD) (i k : ℕ) (hi : i < 8) (hk : k < 8) (p : Fin 2048) : EReal :=
  ∑ q : Fin 2048,
    (Aarr m c) (ix2 ⟨2048 * i + p.val, by have := p.isLt; omega⟩ ⟨2048 * k + q.val, by have := q.isLt; omega⟩)

/-- The neighbour-sum update of point `8 i + k` adds tile `k`'s contribution. -/
theorem acc_step (c : Dev nD) (t : Fin cfg0.N) (i k : ℕ) (hi : i < 8) (hk : k < 8) (e : t.val = 8 * i + k)
    (prev : FVec Ideal S2048x128 .f32) (p : Fin 2048) (j : Fin 128) :
    k0_pay3 (F := Ideal) (adjBlk m c t) (xTile (grid0.coords t) (xAll m c t)) prev (ix2 p j)
      = prev (ix2 p j) + tileAgg m c i k hi hk p j := by
  refine (pay3_apply (adjBlk m c t) (xTile (grid0.coords t) (xAll m c t)) prev p j).trans
    (congrArg (prev (ix2 p j) + ·) (Finset.sum_congr rfl fun q _ => ?_))
  refine congrArg₂ (· * ·) (adj_blk m c t i k hi hk e p q) ?_
  refine (xTile_apply t (xAll m c t) k hk (by omega) q j).trans ?_
  exact x_blk m c t _ j

/-- The row-weight update of point `8 i + k` adds tile `k`'s contribution. -/
theorem deg_step (c : Dev nD) (t : Fin cfg0.N) (i k : ℕ) (hi : i < 8) (hk : k < 8) (e : t.val = 8 * i + k)
    (prev : FVec Ideal S2048x1 .f32) (p : Fin 2048) :
    k0_pay4 (F := Ideal) (adjBlk m c t) prev (ix2 p (0 : Fin 1))
      = prev (ix2 p (0 : Fin 1)) + tileDeg m c i k hi hk p := by
  refine (pay4_apply (adjBlk m c t) prev p).trans
    (congrArg (prev (ix2 p (0 : Fin 1)) + ·) (Finset.sum_congr rfl fun q _ => ?_))
  exact adj_blk m c t i k hi hk e p q

/-- The zero block the neighbour sums restart from. -/
theorem pay1_apply (p : Fin 2048) (j : Fin 128) : k0_pay1 (F := Ideal) (ix2 p j) = 0 := by
  unfold k0_pay1
  refine (congrFun (shapeCast_self _ _) _).trans ?_
  exact Ideal.ofBits_zero_f32

/-- The zero column the row weights restart from. -/
theorem pay2_apply (p : Fin 2048) : k0_pay2 (F := Ideal) (ix2 p (0 : Fin 1)) = 0 := by
  unfold k0_pay2
  refine (congrFun (shapeCast_self _ _) _).trans ?_
  exact Ideal.ofBits_zero_f32

/-! ## The induction over the points -/

/-- After point `8 i + k` the two quantities hold the contributions of tiles 0 … k of row block `i`. -/
theorem state_eq (c : Dev nD) : ∀ (n : ℕ) (h : n < cfg0.N) (i k : ℕ) (hi : i < 8) (hk : k < 8), n = 8 * i + k →
    (∀ (p : Fin 2048) (j : Fin 128),
        accAt m c ⟨n, h⟩ (ix2 p j) = ∑ k' : Fin (k + 1), tileAgg m c i k'.val hi (by have := k'.isLt; omega) p j)
    ∧ (∀ p : Fin 2048,
        degAt m c ⟨n, h⟩ (ix2 p (0 : Fin 1)) = ∑ k' : Fin (k + 1), tileDeg m c i k'.val hi (by have := k'.isLt; omega) p)
  | n, h, i, 0, hi, hk, e => by
    have h0 : (⟨n, h⟩ : Fin cfg0.N).val % 8 = 0 := by show n % 8 = 0; omega
    refine ⟨fun p j => ?_, fun p => ?_⟩
    · refine (congrFun (acc_first m c ⟨n, h⟩ h0) (ix2 p j)).trans ?_
      refine (acc_step m c ⟨n, h⟩ i 0 hi hk e _ p j).trans ?_
      rw [pay1_apply, zero_add]
      exact (Fin.sum_univ_one (fun k' : Fin 1 => tileAgg m c i k'.val hi (by have := k'.isLt; omega) p j)).symm
    · refine (congrFun (deg_first m c ⟨n, h⟩ h0) (ix2 p (0 : Fin 1))).trans ?_
      refine (deg_step m c ⟨n, h⟩ i 0 hi hk e _ p).trans ?_
      rw [pay2_apply, zero_add]
      exact (Fin.sum_univ_one (fun k' : Fin 1 => tileDeg m c i k'.val hi (by have := k'.isLt; omega) p)).symm
  | 0, h, i, k + 1, hi, hk, e => by omega
  | n + 1, h, i, k + 1, hi, hk, e => by
    have h0 : ¬ (⟨n + 1, h⟩ : Fin cfg0.N).val % 8 = 0 := by show ¬ (n + 1) % 8 = 0; omega
    have ih := state_eq c n (Nat.lt_of_succ_lt h) i k hi (by omega) (by omega)
    refine ⟨fun p j => ?_, fun p => ?_⟩
    · refine (congrFun (acc_next m c ⟨n + 1, h⟩ h0) (ix2 p j)).trans ?_
      refine (acc_step m c ⟨n + 1, h⟩ i (k + 1) hi hk e _ p j).trans ?_
      rw [Fin.sum_univ_castSucc]
      exact congrArg₂ (· + ·) (ih.1 p j) rfl
    · refine (congrFun (deg_next m c ⟨n + 1, h⟩ h0) (ix2 p (0 : Fin 1))).trans ?_
      refine (deg_step m c ⟨n + 1, h⟩ i (k + 1) hi hk e _ p).trans ?_
      rw [Fin.sum_univ_castSucc]
      exact congrArg₂ (· + ·) (ih.2 p) rfl

/-- After the last column tile of row block `i`: the whole neighbour sums of its rows. -/
theorem acc_last (c : Dev nD) (t : Fin cfg0.N) (i : ℕ) (hi : i < 8) (e : t.val = 8 * i + 7) (p : Fin 2048) (j : Fin 128) :
    accAt m c t (ix2 p j)
      = Cert.Sage.agg (Xarr m c) (Aarr m c)
          ⟨2048 * i + p.val, by have := p.isLt; omega⟩ j := by
  refine ((state_eq m c t.val t.isLt i 7 hi (by omega) e).1 p j).trans ?_
  unfold tileAgg
  exact (Cert.Sage.agg_tiles ((Xarr m c)) ((Aarr m c)) ⟨2048 * i + p.val, by have := p.isLt; omega⟩ j).symm

/-- After the last column tile of row block `i`: the whole row weights of its rows. -/
theorem deg_last (c : Dev nD) (t : Fin cfg0.N) (i : ℕ) (hi : i < 8) (e : t.val = 8 * i + 7) (p : Fin 2048) :
    degAt m c t (ix2 p (0 : Fin 1))
      = Cert.Sage.rowsum (Aarr m c) ⟨2048 * i + p.val, by have := p.isLt; omega⟩ := by
  refine ((state_eq m c t.val t.isLt i 7 hi (by omega) e).2 p).trans ?_
  unfold tileDeg
  exact (Cert.Sage.rowsum_tiles ((Aarr m c)) ⟨2048 * i + p.val, by have := p.isLt; omega⟩).symm

end Cert.KernelIdeal.Accum

end
-- ==== Proof.LibSlice2.lean ====
/-
  A unit-stride slice of a rank-2 array read at a pair of coordinates: entry (p, q) of the slice that starts at
  (o₀, o₁) is entry (o₀ + p, o₁ + q) of the array.
-/
import Idealize.ShloMosaic.Lib.Pipeline.Value
import Idealize.ShloMosaic.Lib.ValueIdx

namespace Cert.LibSlice2

open Idealize.ShloMosaic Idealize.ShloMosaic.ValueIdx

/-- Entry `(p, q)` of the slice at offsets `(o₀, o₁)` is entry `(o₀ + p, o₁ + q)` of the array. -/
theorem slice2_apply {α : Type} {m n m' n' : ℕ} (o₀ o₁ : ℕ) (x : (⟨2, ![m, n]⟩ : Shape).Idx → α)
    (h : (⟨2, ![m, n]⟩ : Shape).Slices ![o₀, o₁] ⟨2, ![m', n']⟩) (p : Fin m') (q : Fin n')
    (hp : o₀ + p.val < m) (hq : o₁ + q.val < n) :
    extractStridedSlice ⟨2, ![m', n']⟩ ![o₀, o₁] x h (ix2 p q) = x (ix2 ⟨o₀ + p.val, hp⟩ ⟨o₁ + q.val, hq⟩) :=
  extractStridedSlice_apply _ x h _ _ fun a => by
    match a with
    | ⟨0, _⟩ => rfl
    | ⟨1, _⟩ => rfl

end Cert.LibSlice2
-- ==== Proof.LibRefScatter.lean ====
/-
  A scatter whose body returns the update and whose updates are all one value ("set these cells to c"), read at an
  index: the value where some update lands, the operand elsewhere. Then the four index patterns of a grid's edits:
  one whole row, one whole column, a span of one row from a start column, and one row of a one-channel slab.
-/
import Idealize.ShloMosaic.Lib.ValueIdx
import Idealize.ShloMosaic.Lib.Pipeline.Value

namespace Cert.LibRefScatter

open Idealize.ShloMosaic Idealize.ShloMosaic.ValueIdx

/-- An update lands on operand index `i` exactly when, on every axis, its start (read signed, not clamped) plus its
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- A left fold of "set the cell the step names to c": a cell some step names ends at c. -/
theorem foldl_set_const {ι κ α : Type} [DecidableEq ι] (g : κ → Option ι) (c : α) (step : (ι → α) → κ → (ι → α))
    (hstep : ∀ r n i, step r n i = if g n = some i then c else r i) :
    ∀ (l : List κ) (x : ι → α) (i : ι), (∃ n ∈ l, g n = some i) → (l.foldl step x) i = c := by
  intro l
  induction l using List.reverseRecOn with
  | nil => intro x i h; simp at h
  | append_singleton l n ih =>
    intro x i h
    rw [List.foldl_append, List.foldl_cons, List.foldl_nil, hstep]
    by_cases hn : g n = some i
    · rw [if_pos hn]
    · rw [if_neg hn]
      refine ih x i ?_
      obtain ⟨m, hm, hg⟩ := h
      rcases List.mem_append.mp hm with hm | hm
      · exact ⟨m, hm, hg⟩
      · rw [List.mem_singleton] at hm; subst hm; exact absurd hg hn

theorem foldl_set_const_not {ι κ α : Type} [DecidableEq ι] (g : κ → Option ι) (c : α) (step : (ι → α) → κ → (ι → α))
    (hstep : ∀ r n i, step r n i = if g n = some i then c else r i) :
    ∀ (l : List κ) (x : ι → α) (i : ι), (¬ ∃ n ∈ l, g n = some i) → (l.foldl step x) i = x i := by
  intro l
  induction l using List.reverseRecOn with
  | nil => intro x i h; rfl
  | append_singleton l n ih =>
    intro x i h
    rw [List.foldl_append, List.foldl_cons, List.foldl_nil, hstep]
    have hn : ¬ g n = some i := fun hg => h ⟨n, by simp, hg⟩
    rw [if_neg hn]
    exact ih x i fun ⟨m, hm, hg⟩ => h ⟨m, List.mem_append_left _ hm, hg⟩

theorem scatter_step {s si u : Shape} {w : ℕ} {α : Type} (d : ScatterDims s si u) (idx : IVec si w) (c : α)
    (r : s.Idx → α) (n : Fin u.numel) (i : s.Idx) :
    (match d.resultIdx? (u.rowMajor.symm n) idx with
      | some i0 => fun i' => if i' = i0 then (fun (_ b : α) => b) (r i0) ((fun _ => c) (u.rowMajor.symm n)) else r i'
      | none => r) i = if d.resultIdx? (u.rowMajor.symm n) idx = some i then c else r i := by
  cases h : d.resultIdx? (u.rowMajor.symm n) idx with
  | none => simp
  | some i0 =>
    simp only [Option.some.injEq]
    by_cases e : i = i0
    · subst e; simp
    · rw [if_neg e, if_neg (fun e' => e e'.symm)]

/-- A scatter that overwrites with one value: the value where some update lands, the operand elsewhere. -/
theorem scatter_set_const_pos {s si u : Shape} {w : ℕ} {α : Type} (d : ScatterDims s si u) (x : s.Idx → α) (idx : IVec si w)
    (upd : u.Idx → α) (c : α) (hc : ∀ j, upd j = c) (i : s.Idx) (h : ∃ j : u.Idx, d.resultIdx? j idx = some i) :
    Host.scatter d (fun _ b => b) x idx upd i = c := by
  obtain rfl : upd = fun _ => c := funext hc
  unfold Host.scatter
  refine foldl_set_const (fun n => d.resultIdx? (u.rowMajor.symm n) idx) c _ (fun r n i => scatter_step d idx c r n i) _ x i ?_
  obtain ⟨j, h⟩ := h
  exact ⟨u.rowMajor j, List.mem_finRange _, by rw [Equiv.symm_apply_apply]; exact h⟩

theorem scatter_set_const_neg {s si u : Shape} {w : ℕ} {α : Type} (d : ScatterDims s si u) (x : s.Idx → α) (idx : IVec si w)
    (upd : u.Idx → α) (c : α) (hc : ∀ j, upd j = c) (i : s.Idx) (h : ¬ ∃ j : u.Idx, d.resultIdx? j idx = some i) :
    Host.scatter d (fun _ b => b) x idx upd i = x i := by
  obtain rfl : upd = fun _ => c := funext hc
  unfold Host.scatter
  refine foldl_set_const_not (fun n => d.resultIdx? (u.rowMajor.symm n) idx) c _ (fun r n i => scatter_step d idx c r n i) _ x i ?_
  rintro ⟨n, _, hn⟩
  exact h ⟨_, hn⟩

/-! ## One whole row -/

section Row
variable {n0 n1 w : Nat} {α : Type} (wf : ScatterDims.WF ⟨2, ![n0, n1]⟩ ⟨1, ![1]⟩ ⟨1, ![n1]⟩ [0] [0] [0] 0)

/-- `x.at[r, :].set(c)`: the start index names the row, the updates' axis is the window over the columns. -/
abbrev rowDims (n0 n1 : Nat) (wf : ScatterDims.WF ⟨2, ![n0, n1]⟩ ⟨1, ![1]⟩ ⟨1, ![n1]⟩ [0] [0] [0] 0) :
    ScatterDims ⟨2, ![n0, n1]⟩ ⟨1, ![1]⟩ ⟨1, ![n1]⟩ where
  updateWindowDims := [0]
  insertedWindowDims := [0]
  scatterDimsToOperandDims := [0]
  indexVectorDim := 0
  wf := wf

theorem row_start0 (j : (⟨1, ![n1]⟩ : Shape).Idx) (idx : IVec ⟨1, ![1]⟩ w) :
    (rowDims n0 n1 wf).start j idx 0 = (idx (ix1 0)).toInt := by
  unfold ScatterDims.start
  rw [dif_pos (show (0 : Fin 2) ∈ ([0] : List (Fin 2)) from by decide)]
  congr 2
  funext b; match b with | ⟨0, _⟩ => rfl

theorem row_resultIdx?_iff (j : (⟨1, ![n1]⟩ : Shape).Idx) (idx : IVec ⟨1, ![1]⟩ w) (i : (⟨2, ![n0, n1]⟩ : Shape).Idx) :
    (rowDims n0 n1 wf).resultIdx? j idx = some i ↔ (idx (ix1 0)).toInt = ((i 0).val : ℤ) ∧ (j 0).val = (i 1).val := by
  rw [resultIdx?_eq_some_iff]
  constructor
  · intro h
    have h0 := h 0
    have h1 := h 1
    rw [row_start0] at h0
    change (idx (ix1 0)).toInt + ((0 : ℕ) : ℤ) = _ at h0
    change (0 : ℤ) + (((j 0).val : ℕ) : ℤ) = _ at h1
    exact ⟨by omega, by omega⟩
  · rintro ⟨h0, h1⟩ a
    match a with
    | ⟨0, _⟩ =>
      show (rowDims n0 n1 wf).start j idx 0 + ((0 : ℕ) : ℤ) = ((i 0).val : ℤ)
      rw [row_start0]; omega
    | ⟨1, _⟩ =>
      show (0 : ℤ) + (((j 0).val : ℕ) : ℤ) = ((i 1).val : ℤ)
      omega

/-- The row set read at `i`: `c` on the named row, the operand elsewhere. -/
theorem scatter_row_apply (x : (⟨2, ![n0, n1]⟩ : Shape).Idx → α) (idx : IVec ⟨1, ![1]⟩ w) (upd : (⟨1, ![n1]⟩ : Shape).Idx → α)
    (c : α) (hc : ∀ j, upd j = c) (i : (⟨2, ![n0, n1]⟩ : Shape).Idx) :
    Host.scatter (rowDims n0 n1 wf) (fun _ b => b) x idx upd i
      = if (idx (ix1 0)).toInt = ((i 0).val : ℤ) then c else x i := by
  by_cases h : (idx (ix1 0)).toInt = ((i 0).val : ℤ)
  · rw [if_pos h]
    exact scatter_set_const_pos _ x idx upd c hc i ⟨ix1 (i 1), (row_resultIdx?_iff wf _ idx i).mpr ⟨h, rfl⟩⟩
  · rw [if_neg h]
    exact scatter_set_const_neg _ x idx upd c hc i fun ⟨j, hj⟩ => h ((row_resultIdx?_iff wf j idx i).mp hj).1

end Row

/-! ## One whole column -/

section Col
variable {n0 n1 w : Nat} {α : Type} (wf : ScatterDims.WF ⟨2, ![n0, n1]⟩ ⟨1, ![1]⟩ ⟨1, ![n0]⟩ [0] [1] [1] 0)

/-- `x.at[:, c].set(v)`: the start index names the column, the updates' axis is the window over the rows. -/
abbrev colDims (n0 n1 : Nat) (wf : ScatterDims.WF ⟨2, ![n0, n1]⟩ ⟨1, ![1]⟩ ⟨1, ![n0]⟩ [0] [1] [1] 0) :
    ScatterDims ⟨2, ![n0, n1]⟩ ⟨1, ![1]⟩ ⟨1, ![n0]⟩ where
  updateWindowDims := [0]
  insertedWindowDims := [1]
  scatterDimsToOperandDims := [1]
  indexVectorDim := 0
  wf := wf

theorem col_start1 (j : (⟨1, ![n0]⟩ : Shape).Idx) (idx : IVec ⟨1, ![1]⟩ w) :
    (colDims n0 n1 wf).start j idx 1 = (idx (ix1 0)).toInt := by
  unfold ScatterDims.start
  rw [dif_pos (show (1 : Fin 2) ∈ ([1] : List (Fin 2)) from by decide)]
  congr 2
  funext b; match b with | ⟨0, _⟩ => rfl

theorem col_resultIdx?_iff (j : (⟨1, ![n0]⟩ : Shape).Idx) (idx : IVec ⟨1, ![1]⟩ w) (i : (⟨2, ![n0, n1]⟩ : Shape).Idx) :
    (colDims n0 n1 wf).resultIdx? j idx = some i ↔ (idx (ix1 0)).toInt = ((i 1).val : ℤ) ∧ (j 0).val = (i 0).val := by
  rw [resultIdx?_eq_some_iff]
  constructor
  · intro h
    have h0 := h 0
    have h1 := h 1
    rw [col_start1] at h1
    change (idx (ix1 0)).toInt + ((0 : ℕ) : ℤ) = _ at h1
    change (0 : ℤ) + (((j 0).val : ℕ) : ℤ) = _ at h0
    exact ⟨by omega, by omega⟩
  · rintro ⟨h0, h1⟩ a
    match a with
    | ⟨0, _⟩ =>
      show (0 : ℤ) + (((j 0).val : ℕ) : ℤ) = ((i 0).val : ℤ)
      omega
    | ⟨1, _⟩ =>
      show (colDims n0 n1 wf).start j idx 1 + ((0 : ℕ) : ℤ) = ((i 1).val : ℤ)
      rw [col_start1]; omega

/-- The column set read at `i`: `c` on the named column, the operand elsewhere. -/
theorem scatter_col_apply (x : (⟨2, ![n0, n1]⟩ : Shape).Idx → α) (idx : IVec ⟨1, ![1]⟩ w) (upd : (⟨1, ![n0]⟩ : Shape).Idx → α)
    (c : α) (hc : ∀ j, upd j = c) (i : (⟨2, ![n0, n1]⟩ : Shape).Idx) :
    Host.scatter (colDims n0 n1 wf) (fun _ b => b) x idx upd i
      = if (idx (ix1 0)).toInt = ((i 1).val : ℤ) then c else x i := by
  by_cases h : (idx (ix1 0)).toInt = ((i 1).val : ℤ)
  · rw [if_pos h]
    exact scatter_set_const_pos _ x idx upd c hc i ⟨ix1 (i 0), (col_resultIdx?_iff wf _ idx i).mpr ⟨h, rfl⟩⟩
  · rw [if_neg h]
    exact scatter_set_const_neg _ x idx upd c hc i fun ⟨j, hj⟩ => h ((col_resultIdx?_iff wf j idx i).mp hj).1

end Col

/-! ## A span of one row -/

section Span
variable {n0 n1 m w : Nat} {α : Type} (wf : ScatterDims.WF ⟨2, ![n0, n1]⟩ ⟨1, ![2]⟩ ⟨1, ![m]⟩ [0] [0] [0, 1] 0)

/-- `x.at[r, c0:c0+m].set(v)`: the start index is the pair (row, first column), the updates' axis the window over the
    columns from there. -/
abbrev spanDims (n0 n1 m : Nat) (wf : ScatterDims.WF ⟨2, ![n0, n1]⟩ ⟨1, ![2]⟩ ⟨1, ![m]⟩ [0] [0] [0, 1] 0) :
    ScatterDims ⟨2, ![n0, n1]⟩ ⟨1, ![2]⟩ ⟨1, ![m]⟩ where
  updateWindowDims := [0]
  insertedWindowDims := [0]
  scatterDimsToOperandDims := [0, 1]
  indexVectorDim := 0
  wf := wf

theorem span_start0 (j : (⟨1, ![m]⟩ : Shape).Idx) (idx : IVec ⟨1, ![2]⟩ w) :
    (spanDims n0 n1 m wf).start j idx 0 = (idx (ix1 0)).toInt := by
  unfold ScatterDims.start
  rw [dif_pos (show (0 : Fin 2) ∈ ([0, 1] : List (Fin 2)) from by decide)]
  congr 2
  funext b; match b with | ⟨0, _⟩ => rfl

theorem span_start1 (j : (⟨1, ![m]⟩ : Shape).Idx) (idx : IVec ⟨1, ![2]⟩ w) :
    (spanDims n0 n1 m wf).start j idx 1 = (idx (ix1 1)).toInt := by
  unfold ScatterDims.start
  rw [dif_pos (show (1 : Fin 2) ∈ ([0, 1] : List (Fin 2)) from by decide)]
  congr 2
  funext b; match b with | ⟨0, _⟩ => rfl

theorem span_resultIdx?_iff (j : (⟨1, ![m]⟩ : Shape).Idx) (idx : IVec ⟨1, ![2]⟩ w) (i : (⟨2, ![n0, n1]⟩ : Shape).Idx) :
    (spanDims n0 n1 m wf).resultIdx? j idx = some i
      ↔ (idx (ix1 0)).toInt = ((i 0).val : ℤ) ∧ (idx (ix1 1)).toInt + ((j 0).val : ℤ) = ((i 1).val : ℤ) := by
  rw [resultIdx?_eq_some_iff]
  constructor
  · intro h
    have h0 := h 0
    have h1 := h 1
    rw [span_start0] at h0
    rw [span_start1] at h1
    change (idx (ix1 0)).toInt + ((0 : ℕ) : ℤ) = _ at h0
    change (idx (ix1 1)).toInt + (((j 0).val : ℕ) : ℤ) = _ at h1
    exact ⟨by omega, by omega⟩
  · rintro ⟨h0, h1⟩ a
    match a with
    | ⟨0, _⟩ =>
      show (spanDims n0 n1 m wf).start j idx 0 + ((0 : ℕ) : ℤ) = ((i 0).val : ℤ)
      rw [span_start0]; omega
    | ⟨1, _⟩ =>
      show (spanDims n0 n1 m wf).start j idx 1 + (((j 0).val : ℕ) : ℤ) = ((i 1).val : ℤ)
      rw [span_start1]; omega

/-- The span set read at `i`: `c` on the named row from the first column for `m` columns, the operand elsewhere. -/
theorem scatter_span_apply (x : (⟨2, ![n0, n1]⟩ : Shape).Idx → α) (idx : IVec ⟨1, ![2]⟩ w) (upd : (⟨1, ![m]⟩ : Shape).Idx → α)
    (c : α) (hc : ∀ j, upd j = c) (i : (⟨2, ![n0, n1]⟩ : Shape).Idx) :
    Host.scatter (spanDims n0 n1 m wf) (fun _ b => b) x idx upd i
      = if (idx (ix1 0)).toInt = ((i 0).val : ℤ) ∧ (idx (ix1 1)).toInt ≤ ((i 1).val : ℤ)
          ∧ ((i 1).val : ℤ) < (idx (ix1 1)).toInt + (m : ℤ) then c else x i := by
  by_cases h : (idx (ix1 0)).toInt = ((i 0).val : ℤ) ∧ (idx (ix1 1)).toInt ≤ ((i 1).val : ℤ)
          ∧ ((i 1).val : ℤ) < (idx (ix1 1)).toInt + (m : ℤ)
  · rw [if_pos h]
    obtain ⟨h0, h1, h2⟩ := h
    refine scatter_set_const_pos _ x idx upd c hc i ⟨ix1 ⟨(((i 1).val : ℤ) - (idx (ix1 1)).toInt).toNat, by omega⟩, ?_⟩
    refine (span_resultIdx?_iff wf _ idx i).mpr ⟨h0, ?_⟩
    show (idx (ix1 1)).toInt + (((((i 1).val : ℤ) - (idx (ix1 1)).toInt).toNat : ℕ) : ℤ) = ((i 1).val : ℤ)
    omega
  · rw [if_neg h]
    refine scatter_set_const_neg _ x idx upd c hc i fun ⟨j, hj⟩ => h ?_
    obtain ⟨h0, h1⟩ := (span_resultIdx?_iff wf j idx i).mp hj
    have := (j 0).isLt
    change (j 0).val < m at this
    exact ⟨h0, by omega, by omega⟩

end Span

/-! ## One row of a one-channel slab -/

section Slab
variable {n0 n1 w : Nat} {α : Type} (wf : ScatterDims.WF ⟨3, ![1, n0, n1]⟩ ⟨1, ![1]⟩ ⟨2, ![1, n1]⟩ [0, 1] [1] [1] 0)

/-- `x.at[:, r, :].set(v)` on a `[1, n0, n1]` array: the start index names the row, the updates' two axes are the
    windows over the channel and the columns. -/
abbrev slabDims (n0 n1 : Nat) (wf : ScatterDims.WF ⟨3, ![1, n0, n1]⟩ ⟨1, ![1]⟩ ⟨2, ![1, n1]⟩ [0, 1] [1] [1] 0) :
    ScatterDims ⟨3, ![1, n0, n1]⟩ ⟨1, ![1]⟩ ⟨2, ![1, n1]⟩ where
  updateWindowDims := [0, 1]
  insertedWindowDims := [1]
  scatterDimsToOperandDims := [1]
  indexVectorDim := 0
  wf := wf

theorem slab_start1 (j : (⟨2, ![1, n1]⟩ : Shape).Idx) (idx : IVec ⟨1, ![1]⟩ w) :
    (slabDims n0 n1 wf).start j idx 1 = (idx (ix1 0)).toInt := by
  unfold ScatterDims.start
  rw [dif_pos (show (1 : Fin 3) ∈ ([1] : List (Fin 3)) from by decide)]
  congr 2
  funext b; match b with | ⟨0, _⟩ => rfl

theorem slab_resultIdx?_iff (j : (⟨2, ![1, n1]⟩ : Shape).Idx) (idx : IVec ⟨1, ![1]⟩ w) (i : (⟨3, ![1, n0, n1]⟩ : Shape).Idx) :
    (slabDims n0 n1 wf).resultIdx? j idx = some i
      ↔ (idx (ix1 0)).toInt = ((i 1).val : ℤ) ∧ (j 0).val = (i 0).val ∧ (j 1).val = (i 2).val := by
  rw [resultIdx?_eq_some_iff]
  constructor
  · intro h
    have h0 := h 0
    have h1 := h 1
    have h2 := h 2
    rw [slab_start1] at h1
    change (0 : ℤ) + (((j 0).val : ℕ) : ℤ) = _ at h0
    change (idx (ix1 0)).toInt + ((0 : ℕ) : ℤ) = _ at h1
    change (0 : ℤ) + (((j 1).val : ℕ) : ℤ) = _ at h2
    exact ⟨by omega, by omega, by omega⟩
  · rintro ⟨h0, h1, h2⟩ a
    match a with
    | ⟨0, _⟩ =>
      show (0 : ℤ) + (((j 0).val : ℕ) : ℤ) = ((i 0).val : ℤ)
      omega
    | ⟨1, _⟩ =>
      show (slabDims n0 n1 wf).start j idx 1 + ((0 : ℕ) : ℤ) = ((i 1).val : ℤ)
      rw [slab_start1]; omega
    | ⟨2, _⟩ =>
      show (0 : ℤ) + (((j 1).val : ℕ) : ℤ) = ((i 2).val : ℤ)
      omega

/-- The slab's row set read at `i`: `c` on the named row, the operand elsewhere. -/
theorem scatter_slab_apply (x : (⟨3, ![1, n0, n1]⟩ : Shape).Idx → α) (idx : IVec ⟨1, ![1]⟩ w)
    (upd : (⟨2, ![1, n1]⟩ : Shape).Idx → α) (c : α) (hc : ∀ j, upd j = c) (i : (⟨3, ![1, n0, n1]⟩ : Shape).Idx) :
    Host.scatter (slabDims n0 n1 wf) (fun _ b => b) x idx upd i
      = if (idx (ix1 0)).toInt = ((i 1).val : ℤ) then c else x i := by
  by_cases h : (idx (ix1 0)).toInt = ((i 1).val : ℤ)
  · rw [if_pos h]
    exact scatter_set_const_pos _ x idx upd c hc i ⟨ix2 (i 0) (i 2), (slab_resultIdx?_iff wf _ idx i).mpr ⟨h, rfl, rfl⟩⟩
  · rw [if_neg h]
    exact scatter_set_const_neg _ x idx upd c hc i fun ⟨j, hj⟩ => h ((slab_resultIdx?_iff wf j idx i).mp hj).1

end Slab

end Cert.LibRefScatter
-- ==== Proof.LibScatterSet.lean ====
/-
  A scatter whose body returns the update (`x.at[…].set(u)`), read at an operand index on which exactly one update
  lands: the result there is that update's value; where no update lands it is the operand. Then one index pattern:
  a block of columns of a rank-2 array set from a rank-2 update with the same rows (`x.at[:, c₀:c₀+m].set(u)`).
-/
import Idealize.ShloMosaic.Lib.ValueIdx
import Idealize.ShloMosaic.Lib.Pipeline.Value
import proofs.«151939_j29755533426830_2_alg».proof.Proof.LibRefScatter

namespace Cert.LibScatterSet

open Idealize.ShloMosaic Idealize.ShloMosaic.ValueIdx

/-- A left fold of "set the cell the step names to the step's value": a cell named by exactly one step of the list ends at
    that step's value. -/
theorem foldl_set_unique {ι κ α : Type} [DecidableEq ι] (g : κ → Option ι) (v : κ → α) (step : (ι → α) → κ → (ι → α))
    (hstep : ∀ r n i, step r n i = if g n = some i then v n else r i) (i : ι) (n₀ : κ) (h₀ : g n₀ = some i) :
    ∀ (l : List κ) (x : ι → α), n₀ ∈ l → (∀ n ∈ l, g n = some i → n = n₀) → (l.foldl step x) i = v n₀ := by
  intro l
  induction l using List.reverseRecOn with
  | nil => intro x h; simp at h
  | append_singleton l n ih =>
    intro x hmem huniq
    rw [List.foldl_append, List.foldl_cons, List.foldl_nil, hstep]
    by_cases hn : g n = some i
    · rw [if_pos hn, huniq n (by simp) hn]
    · rw [if_neg hn]
      refine ih x ?_ (fun n' hn' => huniq n' (List.mem_append_left _ hn'))
      rcases List.mem_append.mp hmem with h | h
      · exact h
      · rw [List.mem_singleton] at h; subst h; exact absurd h₀ hn

/-- The same fold at a cell no step names: the starting value. -/
theorem foldl_set_none {ι κ α : Type} [DecidableEq ι] (g : κ → Option ι) (v : κ → α) (step : (ι → α) → κ → (ι → α))
    (hstep : ∀ r n i, step r n i = if g n = some i then v n else r i) (i : ι) :
    ∀ (l : List κ) (x : ι → α), (∀ n ∈ l, g n ≠ some i) → (l.foldl step x) i = x i := by
  intro l
  induction l using List.reverseRecOn with
  | nil => intro x _; rfl
  | append_singleton l n ih =>
    intro x h
    rw [List.foldl_append, List.foldl_cons, List.foldl_nil, hstep, if_neg (h n (by simp))]
    exact ih x fun n' hn' => h n' (List.mem_append_left _ hn')

/-- One step of a scatter that overwrites, read at an index. -/
theorem scatter_set_step {s si u : Shape} {w : ℕ} {α : Type} (d : ScatterDims s si u) (idx : IVec si w) (upd : u.Idx → α)
    (r : s.Idx → α) (n : Fin u.numel) (i : s.Idx) :
    (match d.resultIdx? (u.rowMajor.symm n) idx with
      | some i0 => fun i' => if i' = i0 then (fun (_ b : α) => b) (r i0) (upd (u.rowMajor.symm n)) else r i'
      | none => r) i = if d.resultIdx? (u.rowMajor.symm n) idx = some i then upd (u.rowMajor.symm n) else r i := by
  cases h : d.resultIdx? (u.rowMajor.symm n) idx with
  | none => simp
  | some i0 =>
    simp only [Option.some.injEq]
    by_cases e : i = i0
    · subst e; simp
    · rw [if_neg e, if_neg (fun e' => e e'.symm)]

/-- A scatter that overwrites, at an operand index exactly one update lands on: that update. -/
theorem scatter_set_apply_of_unique {s si u : Shape} {w : ℕ} {α : Type} (d : ScatterDims s si u) (x : s.Idx → α)
    (idx : IVec si w) (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine (foldl_set_unique (fun n => d.resultIdx? (u.rowMajor.symm n) idx) (fun n => upd (u.rowMajor.symm n)) _
    (fun r n i => scatter_set_step d idx upd r n i) i (u.rowMajor j) (by rw [Equiv.symm_apply_apply]; exact hj)
    (List.finRange u.numel) x (List.mem_finRange _)
    (fun n _ hn => by have := huniq _ hn; rw [← this, Equiv.apply_symm_apply])).trans ?_
  rw [Equiv.symm_apply_apply]

/-- A scatter that overwrites, at an operand index no update lands on: the operand. -/
theorem scatter_set_apply_of_none {s si u : Shape} {w : ℕ} {α : Type} (d : ScatterDims s si u) (x : s.Idx → α)
    (idx : IVec si w) (upd : u.Idx → α) (i : s.Idx) (hnone : ∀ j, d.resultIdx? j idx ≠ some i) :
    Host.scatter d (fun _ b => b) x idx upd i = x i := by
  unfold Host.scatter
  exact foldl_set_none (fun n => d.resultIdx? (u.rowMajor.symm n) idx) (fun n => upd (u.rowMajor.symm n)) _
    (fun r n i => scatter_set_step d idx upd r n i) i (List.finRange u.numel) x (fun n _ => hnone _)

/-! ## A block of columns -/

section Cols
variable {n0 n1 m w : Nat} {α : Type}
  (wf : ScatterDims.WF ⟨2, ![n0, n1]⟩ ⟨1, ![1]⟩ ⟨2, ![n0, m]⟩ [0, 1] [] [1] 0)

/-- `x.at[:, c₀:c₀+m].set(u)`: the one start index names the first column; both axes of the update are window axes. -/
abbrev colsDims (n0 n1 m : Nat) (wf : ScatterDims.WF ⟨2, ![n0, n1]⟩ ⟨1, ![1]⟩ ⟨2, ![n0, m]⟩ [0, 1] [] [1] 0) :
    ScatterDims ⟨2, ![n0, n1]⟩ ⟨1, ![1]⟩ ⟨2, ![n0, m]⟩ where
  updateWindowDims := [0, 1]
  insertedWindowDims := []
  scatterDimsToOperandDims := [1]
  indexVectorDim := 0
  wf := wf

theorem cols_start0 (j : (⟨2, ![n0, m]⟩ : Shape).Idx) (idx : IVec ⟨1, ![1]⟩ w) :
    (colsDims n0 n1 m wf).start j idx 0 = 0 := by
  unfold ScatterDims.start
  rw [dif_neg (show ¬ (0 : Fin 2) ∈ ([1] : List (Fin 2)) from by decide)]

theorem cols_start1 (j : (⟨2, ![n0, m]⟩ : Shape).Idx) (idx : IVec ⟨1, ![1]⟩ w) :
    (colsDims n0 n1 m wf).start j idx 1 = (idx (ix1 0)).toInt := by
  unfold ScatterDims.start
  rw [dif_pos (show (1 : Fin 2) ∈ ([1] : List (Fin 2)) from by decide)]
  congr 2
  funext b; match b with | ⟨0, _⟩ => rfl

theorem cols_resultIdx?_iff (j : (⟨2, ![n0, m]⟩ : Shape).Idx) (idx : IVec ⟨1, ![1]⟩ w) (i : (⟨2, ![n0, n1]⟩ : Shape).Idx) :
    (colsDims n0 n1 m wf).resultIdx? j idx = some i
      ↔ (j 0).val = (i 0).val ∧ (idx (ix1 0)).toInt + ((j 1).val : ℤ) = ((i 1).val : ℤ) := by
  rw [Cert.LibRefScatter.resultIdx?_eq_some_iff]
  constructor
  · intro h
    have h0 := h 0
    have h1 := h 1
    rw [cols_start0] at h0
    rw [cols_start1] at h1
    change (0 : ℤ) + (((j 0).val : ℕ) : ℤ) = _ at h0
    change (idx (ix1 0)).toInt + (((j 1).val : ℕ) : ℤ) = _ at h1
    exact ⟨by omega, by omega⟩
  · rintro ⟨h0, h1⟩ a
    match a with
    | ⟨0, _⟩ =>
      show (colsDims n0 n1 m wf).start j idx 0 + (((j 0).val : ℕ) : ℤ) = ((i 0).val : ℤ)
      rw [cols_start0]; omega
    | ⟨1, _⟩ =>
      show (colsDims n0 n1 m wf).start j idx 1 + (((j 1).val : ℕ) : ℤ) = ((i 1).val : ℤ)
      rw [cols_start1]; omega

/-- The block of columns set, read inside the block: entry `(p, c₀ + q)` is the update's entry `(p, q)`. -/
theorem scatter_cols_apply_inside (x : (⟨2, ![n0, n1]⟩ : Shape).Idx → α) (idx : IVec ⟨1, ![1]⟩ w)
    (upd : (⟨2, ![n0, m]⟩ : Shape).Idx → α) (p : Fin n0) (c : Fin n1) (q : Fin m)
    (hq : (idx (ix1 0)).toInt + (q.val : ℤ) = (c.val : ℤ)) :
    Host.scatter (colsDims n0 n1 m wf) (fun _ b => b) x idx upd (ix2 p c) = upd (ix2 p q) := by
  refine scatter_set_apply_of_unique _ x idx upd (ix2 p c) (ix2 p q)
    ((cols_resultIdx?_iff wf _ idx _).mpr ⟨rfl, hq⟩) fun j' hj' => ?_
  obtain ⟨h0, h1⟩ := (cols_resultIdx?_iff wf j' idx _).mp hj'
  change (j' 0).val = p.val at h0
  change (idx (ix1 0)).toInt + ((j' 1).val : ℤ) = (c.val : ℤ) at h1
  funext a
  match a with
  | ⟨0, _⟩ => exact Fin.ext h0
  | ⟨1, _⟩ => exact Fin.ext (by show (j' 1).val = q.val; omega)

/-- The block of columns set, read outside the block: the operand. -/
theorem scatter_cols_apply_outside (x : (⟨2, ![n0, n1]⟩ : Shape).Idx → α) (idx : IVec ⟨1, ![1]⟩ w)
    (upd : (⟨2, ![n0, m]⟩ : Shape).Idx → α) (i : (⟨2, ![n0, n1]⟩ : Shape).Idx)
    (hout : ((i 1).val : ℤ) < (idx (ix1 0)).toInt ∨ (idx (ix1 0)).toInt + (m : ℤ) ≤ ((i 1).val : ℤ)) :
    Host.scatter (colsDims n0 n1 m wf) (fun _ b => b) x idx upd i = x i := by
  refine scatter_set_apply_of_none _ x idx upd i fun j hj => ?_
  obtain ⟨_, h1⟩ := (cols_resultIdx?_iff wf j idx i).mp hj
  have := (j 1).isLt
  change (j 1).val < m at this
  omega

end Cols

end Cert.LibScatterSet
-- ==== Proof.Prep.lean ====
/-
  The arrays the host prepares before the kernel is launched, read at an index: the two halves of the projection
  matrix, transposed (entry (j, e) of the first is W[e, j], of the second W[e, 128 + j]); the classifier matrix
  transposed and placed in the first 40 of 128 columns of a zero array (entry (e, c) is M[c, e] for c < 40); the
  bias placed in the first 40 of 128 columns of a zero row (entry (0, c) is b[c] for c < 40).
-/
import proofs.«151939_j29755533426830_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run
import proofs.«151939_j29755533426830_2_alg».proof.Proof.LibSlice2
import proofs.«151939_j29755533426830_2_alg».proof.Proof.LibScatterSet

set_option maxRecDepth 16384

noncomputable section

namespace Cert.KernelIdeal.Prep

open Idealize.ShloMosaic Idealize.ShloMosaic.TcCoe Idealize.SL.Sem
open Cert.KernelIdeal Cert.KernelIdeal.Gen

variable {F : FTy → Type} [FloatOps F]

open Idealize.ShloMosaic.ValueIdx

variable (m : (ℓ : Loc nD τ sig) → Buf (Elt Ideal) ℓ)

/-- The first half of the projection, transposed. -/
theorem V_v1 (c : Dev nD) : (V m c main_v1 : S128x256.Idx → EReal)
    = transpose S128x256 [1, 0] (extractStridedSlice S256x128 ![0, 0] (m ((c : Thread nD τ).loc main_arg2)) slices_S256x256_S256x128_0_0) transposes_S256x128_S128x256_1_0 := by
  show StableHlo.after hostOps0 (fun b => m (c, b)) (Proc.devRef .tc main_v1) = _
  after_results

/-- The second half of the projection, transposed. -/
theorem V_v3 (c : Dev nD) : (V m c main_v3 : S128x256.Idx → EReal)
    = transpose S128x256 [1, 0] (extractStridedSlice S256x128 ![0, 128] (m ((c : Thread nD τ).loc main_arg2)) slices_S256x256_S256x128_0_128) transposes_S256x128_S128x256_1_0 := by
  show StableHlo.after hostOps0 (fun b => m (c, b)) (Proc.devRef .tc main_v3) = _
  after_results

/-- The classifier matrix, transposed, set into the first 40 columns of a zero array. -/
theorem V_v7 (c : Dev nD) : (V m c main_v7 : S256x128.Idx → EReal)
    = Host.scatter scatter_S256x128_S1_S256x40_01_n_1_0 (fun _ b => b)
        (broadcastInDim S256x128 ![] bcast_S_S256x128 (constant (F := Ideal) S_ .f32 0x00000000#32))
        (broadcastInDim S1 ![] bcast_S_S1 (constantI S_ 32 0#32))
        (transpose S256x40 [1, 0] (m ((c : Thread nD τ).loc main_arg3)) transposes_S40x256_S256x40_1_0) := by
  show StableHlo.after hostOps0 (fun b => m (c, b)) (Proc.devRef .tc main_v7) = _
  after_results

/-- The bias, as a row, set into the first 40 columns of a zero row. -/
theorem V_v11 (c : Dev nD) : (V m c main_v11 : S1x128.Idx → EReal)
    = Host.scatter scatter_S1x128_S1_S1x40_01_n_1_0 (fun _ b => b)
        (broadcastInDim S1x128 ![] bcast_S_S1x128 (constant (F := Ideal) S_ .f32 0x00000000#32))
        (broadcastInDim S1 ![] bcast_S_S1 (constantI S_ 32 0#32))
        (shapeCast S1x40 (m ((c : Thread nD τ).loc main_arg4)) shapeCasts_S40_S1x40) := by
  show StableHlo.after hostOps0 (fun b => m (c, b)) (Proc.devRef .tc main_v11) = _
  after_results
  rfl

/-- Entry (j, e) of the first transposed half is W[e, j]. -/
theorem V_v1_apply (c : Dev nD) (j : Fin 128) (e : Fin 256) :
    (V m c main_v1 : S128x256.Idx → EReal) (ix2 j e)
      = m ((c : Thread nD τ).loc main_arg2) (ix2 e ⟨j.val, by have := j.isLt; omega⟩) := by
  rw [V_v1]
  refine (transpose_apply [1, 0] _ transposes_S256x128_S128x256_1_0 (ix2 j e) (ix2 e j) (fun b => match b with
    | ⟨0, _⟩ => rfl
    | ⟨1, _⟩ => rfl)).trans ?_
  refine (Cert.LibSlice2.slice2_apply 0 0 _ slices_S256x256_S256x128_0_0 e j (by have := e.isLt; omega) (by have := j.isLt; omega)).trans ?_
  exact congrArg _ (funext fun a => Fin.ext (by match a with
    | ⟨0, _⟩ => show 0 + e.val = e.val; omega
    | ⟨1, _⟩ => show 0 + j.val = j.val; omega))

/-- Entry (j, e) of the second transposed half is W[e, 128 + j]. -/
theorem V_v3_apply (c : Dev nD) (j : Fin 128) (e : Fin 256) :
    (V m c main_v3 : S128x256.Idx → EReal) (ix2 j e)
      = m ((c : Thread nD τ).loc main_arg2) (ix2 e ⟨128 + j.val, by have := j.isLt; omega⟩) := by
  rw [V_v3]
  refine (transpose_apply [1, 0] _ transposes_S256x128_S128x256_1_0 (ix2 j e) (ix2 e j) (fun b => match b with
    | ⟨0, _⟩ => rfl
    | ⟨1, _⟩ => rfl)).trans ?_
  refine (Cert.LibSlice2.slice2_apply 0 128 _ slices_S256x256_S256x128_0_128 e j (by have := e.isLt; omega) (by have := j.isLt; omega)).trans ?_
  exact congrArg _ (funext fun a => Fin.ext (by match a with
    | ⟨0, _⟩ => show 0 + e.val = e.val; omega
    | ⟨1, _⟩ => rfl))

/-- Entry (e, c) of the padded classifier array, for a class column c < 40, is M[c, e]. -/
theorem V_v7_apply (c : Dev nD) (e : Fin 256) (k : Fin 40) :
    (V m c main_v7 : S256x128.Idx → EReal) (ix2 e ⟨k.val, by have := k.isLt; omega⟩)
      = m ((c : Thread nD τ).loc main_arg3) (ix2 k e) := by
  rw [V_v7]
  refine (Cert.LibScatterSet.scatter_cols_apply_inside (n0 := 256) (n1 := 128) (m := 40) scatter_S256x128_S1_S256x40_01_n_1_0_wf
    _ _ _ e ⟨k.val, by have := k.isLt; omega⟩ k (by show (0#32 : BitVec 32).toInt + (k.val : ℤ) = (k.val : ℤ); simp)).trans ?_
  exact transpose_apply [1, 0] _ transposes_S40x256_S256x40_1_0 (ix2 e k) (ix2 k e) (fun b => match b with
    | ⟨0, _⟩ => rfl
    | ⟨1, _⟩ => rfl)

/-- Entry (0, c) of the padded bias row, for a class column c < 40, is b[c]. -/
theorem V_v11_apply (c : Dev nD) (k : Fin 40) :
    (V m c main_v11 : S1x128.Idx → EReal) (ix2 (0 : Fin 1) ⟨k.val, by have := k.isLt; omega⟩)
      = m ((c : Thread nD τ).loc main_arg4) (ix1 k) := by
  rw [V_v11]
  refine (Cert.LibScatterSet.scatter_cols_apply_inside (n0 := 1) (n1 := 128) (m := 40) scatter_S1x128_S1_S1x40_01_n_1_0_wf
    _ _ _ (0 : Fin 1) ⟨k.val, by have := k.isLt; omega⟩ k (by show (0#32 : BitVec 32).toInt + (k.val : ℤ) = (k.val : ℤ); simp)).trans ?_
  exact shapeCast_a_1a_apply _ shapeCasts_S40_S1x40 (0 : Fin 1) k

end Cert.KernelIdeal.Prep

end
-- ==== Proof.Final.lean ====
/-
  From the blocks to the arrays. Row block `i` of the padded result (2048 × 128) is written once, after column tile 7,
  and the eight row blocks tile the [16384, 128] array; entry (r, c) of that array is the layer's output entry of
  node `r` against column `c` of the padded classifier and bias. The program's result is its first 40 columns,
  where the padded classifier and bias are the classifier and the bias: `Cert.Sage.G` of the argument arrays.
-/
import proofs.«151939_j29755533426830_2_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import proofs.«151939_j29755533426830_2_alg».proof.Proof.Accum
import proofs.«151939_j29755533426830_2_alg».proof.Proof.Prep

set_option maxRecDepth 16384

noncomputable section

namespace Cert.KernelIdeal.Final

open Idealize.ShloMosaic Idealize.ShloMosaic.TcCoe Idealize.SL.Sem
open Cert.KernelIdeal Cert.KernelIdeal.Gen

variable {F : FTy → Type} [FloatOps F]

open Idealize.ShloMosaic.ValueIdx
open Idealize.ShloMosaic.Pipeline (Dat)
open Cert.KernelIdeal.Pieces Cert.KernelIdeal.Payload Cert.KernelIdeal.State Cert.KernelIdeal.Accum Cert.KernelIdeal.Prep

variable (m : (ℓ : Loc nD τ sig) → Buf (Elt Ideal) ℓ) (ρ : Dev nD → PrngReg)

/-- Equal data give equal output entries. -/
theorem outRow_congr {xr xr' ar ar' : Fin 128 → EReal} {d d' : EReal} {wx wx' wn wn' : Fin 128 → Fin 256 → EReal}
    {wm wm' : Fin 256 → EReal} {b b' : EReal} (h1 : xr = xr') (h2 : ar = ar') (h3 : d = d') (h4 : wx = wx') (h5 : wn = wn')
    (h6 : wm = wm') (h7 : b = b') :
    Cert.Sage.outRow xr ar d wx wn wm b = Cert.Sage.outRow xr' ar' d' wx' wn' wm' b' := by
  subst h1 h2 h3 h4 h5 h6 h7; rfl

/-! ## The parameter blocks -/

theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)

/-- The result's block at point `t` is row block `t / 8`. -/
theorem idx_out : ∀ t : Fin cfg0.N, win0_6.index t (0 : Fin 2) = t.val / 8 ∧ win0_6.index t (1 : Fin 2) = 0 :=
  (by decide +kernel : ∀ t : Fin grid0.N, _)

/-- Window 2's block is its whole array at every point. -/
theorem blk2 (c : Dev nD) (t : Fin cfg0.N) (p : Fin 128) (q : Fin 256) :
    (iblk m c 2 t : S128x256.Idx → EReal) (ix2 p q) = (V m c main_v1 : S128x256.Idx → EReal) (ix2 p q) := by
  obtain ⟨e0, e1⟩ := idx_w2 t
  unfold iblk
  rw [View.read_apply]
  show (V m c main_v1 : S128x256.Idx → EReal) _ = _
  refine congrArg (V m c main_v1 : S128x256.Idx → EReal) (funext fun a => Fin.ext ?_)
  match a with
  | ⟨0, _⟩ => show win0_2.index t (0 : Fin 2) * 128 + 1 * p.val = p.val; omega
  | ⟨1, _⟩ => show win0_2.index t (1 : Fin 2) * 256 + 1 * q.val = q.val; omega

/-- Window 3's block is its whole array at every point. -/
theorem blk3 (c : Dev nD) (t : Fin cfg0.N) (p : Fin 128) (q : Fin 256) :
    (iblk m c 3 t : S128x256.Idx → EReal) (ix2 p q) = (V m c main_v3 : S128x256.Idx → EReal) (ix2 p q) := by
  obtain ⟨e0, e1⟩ := idx_w3 t
  unfold iblk
  rw [View.read_apply]
  show (V m c main_v3 : S128x256.Idx → EReal) _ = _
  refine congrArg (V m c main_v3 : S128x256.Idx → EReal) (funext fun a => Fin.ext ?_)
  match a with
  | ⟨0, _⟩ => show win0_3.index t (0 : Fin 2) * 128 + 1 * p.val = p.val; omega
  | ⟨1, _⟩ => show win0_3.index t (1 : Fin 2) * 256 + 1 * q.val = q.val; omega

/-- Window 4's block is its whole array at every point. -/
theorem blk4 (c : Dev nD) (t : Fin cfg0.N) (p : Fin 256) (q : Fin 128) :
    (iblk m c 4 t : S256x128.Idx → EReal) (ix2 p q) = (V m c main_v7 : S256x128.Idx → EReal) (ix2 p q) := by
  obtain ⟨e0, e1⟩ := idx_w4 t
  unfold iblk
  rw [View.read_apply]
  show (V m c main_v7 : S256x128.Idx → EReal) _ = _
  refine congrArg (V m c main_v7 : S256x128.Idx → EReal) (funext fun a => Fin.ext ?_)
  match a with
  | ⟨0, _⟩ => show win0_4.index t (0 : Fin 2) * 256 + 1 * p.val = p.val; omega
  | ⟨1, _⟩ => show win0_4.index t (1 : Fin 2) * 128 + 1 * q.val = q.val; omega

/-- Window 5's block is its whole array at every point. -/
theorem blk5 (c : Dev nD) (t : Fin cfg0.N) (p : Fin 1) (q : Fin 128) :
    (iblk m c 5 t : S1x128.Idx → EReal) (ix2 p q) = (V m c main_v11 : S1x128.Idx → EReal) (ix2 p q) := by
  obtain ⟨e0, e1⟩ := idx_w5 t
  unfold iblk
  rw [View.read_apply]
  show (V m c main_v11 : S1x128.Idx → EReal) _ = _
  refine congrArg (V m c main_v11 : S1x128.Idx → EReal) (funext fun a => Fin.ext ?_)
  match a with
  | ⟨0, _⟩ => show win0_5.index t (0 : Fin 2) * 1 + 1 * p.val = p.val; omega
  | ⟨1, _⟩ => show win0_5.index t (1 : Fin 2) * 128 + 1 * q.val = q.val; omega

/-! ## The padded result array -/

/-- The [16384, 128] array the kernel fills: entry (r, c) is node `r`'s output entry against column `c` of the prepared
    classifier and bias arrays. -/
def KOut (c : Dev nD) : S16384x128.Idx → EReal := fun i =>
  Cert.Sage.outRow (fun j => (Xarr m c) (ix2 (i 0) j))
    (fun j => Cert.Sage.agg (Xarr m c) (Aarr m c) (i 0) j)
    (Cert.Sage.rowsum (Aarr m c) (i 0))
    (fun j e => (V m c main_v1 : S128x256.Idx → EReal) (ix2 j e))
    (fun j e => (V m c main_v3 : S128x256.Idx → EReal) (ix2 j e))
    (fun e => (V m c main_v7 : S256x128.Idx → EReal) (ix2 e (i 1)))
    ((V m c main_v11 : S1x128.Idx → EReal) (ix2 (0 : Fin 1) (i 1)))

/-- What a writing point writes back is its block of the padded result array. -/
theorem flushed_eq (c : Dev nD) (t : Fin cfg0.N) (hf : (cfg0.win 6).flush t = true) :
    (dats m 0 c).flushed 6 t = ((cfg0.win 6).blk t).view.read (Elt Ideal) (KOut m c) := by
  have h7 : t.val % 8 = 7 := (flush0_6 t).mp hf
  have hN : cfg0.N = 64 := N_0
  have hlt := t.isLt
  obtain ⟨i, hi, e⟩ : ∃ i, i < 8 ∧ t.val = 8 * i + 7 := ⟨t.val / 8, by omega, by omega⟩
  obtain ⟨e0, e1⟩ := idx_out t
  show (cfg0.win 6).cut (grid0.coords t) ((dats m 0 c).after 6 t) = _
  rw [after0_6, out_last m c t h7]
  funext y
  obtain ⟨p, k, rfl⟩ : ∃ (p : Fin 2048) (k : Fin 128), y = ix2 p k := ⟨y 0, y 1, eq_ix2 y⟩
  have hemb : ((cfg0.win 6).blk t).view.emb (ix2 p k)
      = (ix2 ⟨2048 * i + p.val, by have := p.isLt; omega⟩ k : S16384x128.Idx) := funext fun a => Fin.ext (by
    match a with
    | ⟨0, _⟩ => show win0_6.index t (0 : Fin 2) * 2048 + 1 * p.val = 2048 * i + p.val; omega
    | ⟨1, _⟩ => show win0_6.index t (1 : Fin 2) * 128 + 1 * k.val = k.val; omega)
  show k0_pay5 (F := Ideal) (degAt m c t) (accAt m c t) (xRows (grid0.coords t) ((hcond0_1 t).mpr h7) (xAll m c t))
      (iblk m c 2 t) (iblk m c 3 t) (iblk m c 4 t) (iblk m c 5 t) (ix2 p k) = KOut m c (((cfg0.win 6).blk t).view.emb (ix2 p k))
  rw [hemb]
  refine (pay5_apply _ _ _ _ _ _ _ p k).trans ?_
  unfold KOut
  refine outRow_congr (funext fun j => ?_) (funext fun j => ?_) ?_ (funext fun j => funext fun e' => ?_)
    (funext fun j => funext fun e' => ?_) (funext fun e' => ?_) ?_
  · exact (xRows_apply t _ (xAll m c t) i hi (by omega) p j).trans (x_blk m c t _ j)
  · exact acc_last m c t i hi e p j
  · exact deg_last m c t i hi e p
  · exact blk2 m c t j e'
  · exact blk3 m c t j e'
  · exact blk4 m c t e' k
  · exact blk5 m c t (0 : Fin 1) k

/-- Every entry of the padded result array lies in the block of some writing point. -/
theorem cover (c : Dev nD) (i : S16384x128.Idx) :
    ∃ t : Fin cfg0.N, (cfg0.win 6).flush t = true ∧ i ∈ ((cfg0.win 6).blk t).view.set := by
  have hN : cfg0.N = 64 := N_0
  have h0 : (i 0).val < 16384 := (i 0).isLt
  have h1 : (i 1).val < 128 := (i 1).isLt
  have hb : 8 * ((i 0).val / 2048) + 7 < cfg0.N := by omega
  obtain ⟨e0, e1⟩ := idx_out ⟨8 * ((i 0).val / 2048) + 7, hb⟩
  refine ⟨⟨8 * ((i 0).val / 2048) + 7, hb⟩, (flush0_6 _).mpr (by show (8 * ((i 0).val / 2048) + 7) % 8 = 7; omega), ?_⟩
  show i ∈ ((View.whole main_v12).slice (win0_6.rect ⟨8 * ((i 0).val / 2048) + 7, hb⟩)).set
  rw [View.set_slice_whole, Rect.mem_set_unit]
  intro a
  change win0_6.index ⟨8 * ((i 0).val / 2048) + 7, hb⟩ (0 : Fin 2) = (8 * ((i 0).val / 2048) + 7) / 8 at e0
  match a with
  | ⟨0, _⟩ =>
    show win0_6.index ⟨8 * ((i 0).val / 2048) + 7, hb⟩ (0 : Fin 2) * 2048 ≤ (i 0).val
      ∧ (i 0).val < win0_6.index ⟨8 * ((i 0).val / 2048) + 7, hb⟩ (0 : Fin 2) * 2048 + 2048
    omega
  | ⟨1, _⟩ =>
    show win0_6.index ⟨8 * ((i 0).val / 2048) + 7, hb⟩ (1 : Fin 2) * 128 ≤ (i 1).val
      ∧ (i 1).val < win0_6.index ⟨8 * ((i 0).val / 2048) + 7, hb⟩ (1 : Fin 2) * 128 + 128
    omega

/-- The array the kernel fills ends holding the padded result. -/
theorem final (c : Dev nD) : (dats m 0 c).arrAt 6 cfg0.N = KOut m c :=
  (dats m 0 c).arrAt_eq_of_cover 6 (KOut m c) (flushed_eq m c) (cover c)

/-! ## The first 40 columns -/

/-- The program's result, cut from the padded array, is the layer's result of the argument arrays. -/
theorem result_eq (c : Dev nD) :
    extractStridedSlice S16384x40 ![0, 0] (KOut m c) slices_S16384x128_S16384x40_0_0
      = Cert.Sage.G (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, k, rfl⟩ : ∃ (r : Fin 16384) (k : Fin 40), i = ix2 r k := ⟨i 0, i 1, eq_ix2 i⟩
  refine (Cert.LibSlice2.slice2_apply 0 0 (KOut m c) slices_S16384x128_S16384x40_0_0 r k (by have := r.isLt; omega) (by have := k.isLt; omega)).trans ?_
  unfold KOut Cert.Sage.G
  have hr : (⟨0 + r.val, by have := r.isLt; omega⟩ : Fin 16384) = r := Fin.ext (by show 0 + r.val = r.val; omega)
  have hk : (⟨0 + k.val, by have := k.isLt; omega⟩ : Fin 128) = ⟨k.val, by have := k.isLt; omega⟩ := Fin.ext (by show 0 + k.val = k.val; omega)
  show Cert.Sage.outRow _ _ _ _ _ _ _ = Cert.Sage.outRow _ _ _ _ _ _ _
  refine outRow_congr (funext fun j => ?_) (funext fun j => ?_) ?_ (funext fun j => funext fun e' => ?_)
    (funext fun j => funext fun e' => ?_) (funext fun e' => ?_) ?_
  · show (Xarr m c) (ix2 ⟨0 + r.val, _⟩ j) = _
    rw [hr]
    exact congrFun (V_main_arg0 m c) (ix2 r j)
  · show Cert.Sage.agg (Xarr m c) (Aarr m c) ⟨0 + r.val, _⟩ j = _
    rw [hr]
    unfold Xarr Aarr
    rw [V_main_arg0, V_main_arg1]
  · show Cert.Sage.rowsum (Aarr m c) ⟨0 + r.val, _⟩ = _
    rw [hr]
    unfold Aarr
    rw [V_main_arg1]
  · exact V_v1_apply m c j e'
  · exact V_v3_apply m c j e'
  · show (V m c main_v7 : S256x128.Idx → EReal) (ix2 e' ⟨0 + k.val, _⟩) = _
    rw [hk]
    exact V_v7_apply m c e' k
  · show (V m c main_v11 : S1x128.Idx → EReal) (ix2 (0 : Fin 1) ⟨0 + k.val, _⟩) = _
    rw [hk]
    exact V_v11_apply m c k

/-- What the host's last operation leaves in the result buffer. -/
theorem tail_eq (c : Dev nD) :
    Pipeline.afterTail₀ cfgs (dats m) 0 (V0 m) [hostOps1] c main_v13
      = extractStridedSlice S16384x40 ![0, 0] (KOut m c) slices_S16384x128_S16384x40_0_0 := by
  unfold Pipeline.afterTail₀
  show StableHlo.after hostOps1 _ (Proc.devRef .tc main_v13) = _
  after_results
  rw [(Pipeline.withArrays_arr spec0 launch0.win.arr_inj c _ _ 6).trans (final m c)]

/-- The run, read: the result buffer ends at the layer's result of the argument arrays, the arguments unchanged. -/
theorem run : θ_run defs (onTc (τ := τ) (main (F := Ideal))) ⟨m, fun _ => 0, ρ⟩ fun r => ∀ c : Dev nD,
      r.2.mem ((c : Thread nD τ).loc main_v13) = Cert.Sage.G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v13 (Pipeline.mem_restRefs_of main_v13 (by decide) (by decide))).trans ((tail_eq m c).trans (result_eq m c)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Final

end
-- ==== Proof.LibKerLayout.lean ====
/-
  Rank-2 layout operations of the host read at a cell: a two-piece concatenation along either axis, a reversal
  along either axis, and zero-or-value padding on the right.
-/
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostValue

open Idealize.ShloMosaic Idealize.ShloMosaic.ValueIdx

variable {α : Type}

/-- Two blocks of rows stacked: a row of the first block. -/
theorem concat2_d0_left {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hlt : i.val < a1) :
    concatenate ⟨2, ![n, b]⟩ (0 : Fin 2) [⟨⟨2, ![a1, b]⟩, x₁⟩, ⟨⟨2, ![a2, b]⟩, x₂⟩] h (ix2 i q) = x₁ (ix2 ⟨i.val, hlt⟩ q) :=
  concatenate_pair_apply_left (0 : Fin 2) x₁ x₂ h (ix2 i q) rfl (ix2 ⟨i.val, hlt⟩ q) (fun b => by
    match b with
    | ⟨0, _⟩ => rfl
    | ⟨1, _⟩ => rfl)

/-- Two blocks of rows stacked: a row of the second block. -/
theorem concat2_d0_right {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hge : a1 ≤ i.val)
    (hlt : i.val - a1 < a2) :
    concatenate ⟨2, ![n, b]⟩ (0 : Fin 2) [⟨⟨2, ![a1, b]⟩, x₁⟩, ⟨⟨2, ![a2, b]⟩, x₂⟩] h (ix2 i q) = x₂ (ix2 ⟨i.val - a1, hlt⟩ q) :=
  concatenate_pair_apply_right (0 : Fin 2) x₁ x₂ h (ix2 i q) rfl rfl (ix2 ⟨i.val - a1, hlt⟩ q) (fun b hb => by
    match b with
    | ⟨0, _⟩ => exact absurd rfl hb
    | ⟨1, _⟩ => rfl) (by show (i.val - a1) + a1 = i.val; omega)

/-- Two blocks of columns side by side: a column of the first block. -/
theorem concat2_d1_left {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hlt : q.val < b1) :
    concatenate ⟨2, ![a, n]⟩ (1 : Fin 2) [⟨⟨2, ![a, b1]⟩, x₁⟩, ⟨⟨2, ![a, b2]⟩, x₂⟩] h (ix2 i q) = x₁ (ix2 i ⟨q.val, hlt⟩) :=
  concatenate_pair_apply_left (1 : Fin 2) x₁ x₂ h (ix2 i q) rfl (ix2 i ⟨q.val, hlt⟩) (fun b => by
    match b with
    | ⟨0, _⟩ => rfl
    | ⟨1, _⟩ => rfl)

/-- Two blocks of columns side by side: a column of the second block. -/
theorem concat2_d1_right {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hge : b1 ≤ q.val)
    (hlt : q.val - b1 < b2) :
    concatenate ⟨2, ![a, n]⟩ (1 : Fin 2) [⟨⟨2, ![a, b1]⟩, x₁⟩, ⟨⟨2, ![a, b2]⟩, x₂⟩] h (ix2 i q) = x₂ (ix2 i ⟨q.val - b1, hlt⟩) :=
  concatenate_pair_apply_right (1 : Fin 2) x₁ x₂ h (ix2 i q) rfl rfl (ix2 i ⟨q.val - b1, hlt⟩) (fun b hb => by
    match b with
    | ⟨0, _⟩ => rfl
    | ⟨1, _⟩ => exact absurd rfl hb) (by show (q.val - b1) + b1 = q.val; omega)

/-- The rows in reverse order. -/
theorem reverse2_d0 {a b : ℕ} (x : (⟨2, ![a, b]⟩ : Shape).Idx → α) (i : Fin a) (q : Fin b) :
    Host.reverse (s := ⟨2, ![a, b]⟩) [(0 : Fin 2)] x (ix2 i q) = x (ix2 i.rev q) := by
  unfold Host.reverse
  refine congrArg x (funext fun ax => ?_)
  match ax with
  | ⟨0, _⟩ => exact if_pos (List.mem_singleton.mpr (Fin.ext rfl))
  | ⟨1, _⟩ => exact if_neg (fun hm => absurd (congrArg Fin.val (List.mem_singleton.mp hm)) Nat.one_ne_zero)

/-- The columns in reverse order. -/
theorem reverse2_d1 {a b : ℕ} (x : (⟨2, ![a, b]⟩ : Shape).Idx → α) (i : Fin a) (q : Fin b) :
    Host.reverse (s := ⟨2, ![a, b]⟩) [(1 : Fin 2)] x (ix2 i q) = x (ix2 i q.rev) := by
  unfold Host.reverse
  refine congrArg x (funext fun ax => ?_)
  match ax with
  | ⟨0, _⟩ => exact if_neg (fun hm => absurd (congrArg Fin.val (List.mem_singleton.mp hm)) Nat.zero_ne_one)
  | ⟨1, _⟩ => exact if_pos (List.mem_singleton.mpr (Fin.ext rfl))

/-- Padding on the right by `p` columns: a column of the operand. -/
theorem pad2_right_inside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hlt : q.val < b) :
    pad ⟨2, ![a, n]⟩ ![0, 0] ![0, p] ![0, 0] x v h hu (ix2 i q) = x (ix2 i ⟨q.val, hlt⟩) :=
  pad_apply_of_inside _ _ _ x v h hu (ix2 i q) (ix2 i ⟨q.val, hlt⟩) (fun ax => by
    match ax with
    | ⟨0, _⟩ => show i.val = 0 + i.val * (0 + 1); omega
    | ⟨1, _⟩ => show q.val = 0 + q.val * (0 + 1); omega)

/-- Padding on the right by `p` columns: a padding column holds the padding value. -/
theorem pad2_right_outside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hge : b ≤ q.val) :
    pad ⟨2, ![a, n]⟩ ![0, 0] ![0, p] ![0, 0] x v h hu (ix2 i q) = v (Shape.Idx.first hu) :=
  pad_apply_of_not_inside _ _ _ x v h hu (ix2 i q) (1 : Fin 2) (fun hin => by
    have h3 : (q.val - 0) / (0 + 1) < b := hin.2.2
    simp at h3; omega)

end Cert.KernelIdeal.HostValue

end
-- ==== Proof.RefSide.lean ====
/-
  The reference computes the layer directly: the row weight plus one, the neighbour sums divided by it, the node's
  features and that quotient side by side (256 entries) against the transposed projection, the positive part, the
  classifier, the bias. Read entry by entry over the extended reals this is `Cert.Sage.G`: a sum over the 256 joined
  entries is the sum over the node's own 128 features plus the sum over the 128 neighbour features, and the zero a
  host sum starts from adds nothing.
-/
import proofs.«151939_j29755533426830_2_alg».proof.Proof.Gen.ReferenceIdeal.Read
import Idealize.ShloMosaic.Lib.ValueIdx
import Idealize.ShloMosaic.PureOps.Ideal.Laws
import proofs.«151939_j29755533426830_2_alg».proof.Proof.LibKerLayout
import proofs.«151939_j29755533426830_2_alg».proof.Proof.Spec

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

variable (x0 : S16384x128.Idx → EReal) (x1 : S16384x16384.Idx → EReal) (x2 : S256x256.Idx → EReal)
  (x3 : S40x256.Idx → EReal) (x4 : S40.Idx → EReal)

/-- The divisor of node `r`: its row weight plus one. -/
theorem deg_ref (r : Fin 16384) :
    val_main_v3 (F := Ideal) x1 (ix2 r (0 : Fin 1)) = Cert.Sage.rowsum x1 r + Ideal.ofBits .f32 0x3F800000#32 := by
  rw [val_main_v3_apply, val_main_v1_apply, val_main_v0_apply, val_main_v2_apply]
  show (Ideal.ofBits .f32 0x00000000#32 + _) + Ideal.ofBits .f32 0x3F800000#32 = _
  rw [Ideal.ofBits_zero_f32, zero_add]
  refine congrArg (· + Ideal.ofBits .f32 0x3F800000#32) (Finset.sum_congr rfl fun q _ => congrArg x1 ?_)
  exact funext fun a => Fin.ext (by match a with | ⟨0, _⟩ => rfl | ⟨1, _⟩ => rfl)

/-- The normalised neighbour feature `n` of node `r`. -/
theorem neigh_ref (r : Fin 16384) (n : Fin 128) :
    val_main_v6 (F := Ideal) x0 x1 (ix2 r n)
      = Ideal.div (Cert.Sage.agg x0 x1 r n) (Cert.Sage.rowsum x1 r + Ideal.ofBits .f32 0x3F800000#32) := by
  rw [val_main_v6_apply, val_main_v4_apply, val_main_v5_apply]
  have e5 : idx_main_v5 (ix2 r n) = ix2 r (0 : Fin 1) :=
    funext fun a => Fin.ext (by match a with | ⟨0, _⟩ => rfl | ⟨1, _⟩ => rfl)
  refine congrArg₂ Ideal.div (Finset.sum_congr rfl fun q _ => ?_)
    ((congrArg (val_main_v3 (F := Ideal) x1) e5).trans (deg_ref x1 r))
  refine congrArg₂ (· * ·) (congrArg x1 ?_) (congrArg x0 ?_)
  · exact funext fun a => Fin.ext (by match a with | ⟨0, _⟩ => rfl | ⟨1, _⟩ => rfl)
  · exact funext fun a => Fin.ext (by match a with | ⟨0, _⟩ => rfl | ⟨1, _⟩ => rfl)

/-- The joined row: its first 128 entries are the node's own features. -/
theorem cat_left (r : Fin 16384) (j : Fin 128) :
    val_main_v7 (F := Ideal) x0 x1 (ix2 r ⟨j.val, by have := j.isLt; omega⟩) = x0 (ix2 r j) := by
  unfold val_main_v7
  exact Cert.KernelIdeal.HostValue.concat2_d1_left x0 _ concatenates_S16384x128_S16384x128_S16384x256_d1 r
    ⟨j.val, by have := j.isLt; omega⟩ j.isLt

/-- The joined row: its last 128 entries are the normalised neighbour features. -/
theorem cat_right (r : Fin 16384) (j : Fin 128) :
    val_main_v7 (F := Ideal) x0 x1 (ix2 r ⟨128 + j.val, by have := j.isLt; omega⟩) = val_main_v6 (F := Ideal) x0 x1 (ix2 r j) := by
  unfold val_main_v7
  refine (Cert.KernelIdeal.HostValue.concat2_d1_right x0 _ concatenates_S16384x128_S16384x128_S16384x256_d1 r
    ⟨128 + j.val, by have := j.isLt; omega⟩ (by show 128 ≤ 128 + j.val; omega) (by show 128 + j.val - 128 < 128; have := j.isLt; omega)).trans ?_
  exact congrArg _ (funext fun a => Fin.ext (by
    match a with
    | ⟨0, _⟩ => rfl
    | ⟨1, _⟩ => show 128 + j.val - 128 = j.val; omega))

/-- Hidden unit `e` of node `r` before the positive part. -/
theorem hid_ref (r : Fin 16384) (e : Fin 256) :
    val_main_v9 (F := Ideal) x0 x1 x2 (ix2 r e)
      = (∑ j : Fin 128, x0 (ix2 r j) * x2 (ix2 e ⟨j.val, by have := j.isLt; omega⟩))
        + ∑ j : Fin 128, Ideal.div (Cert.Sage.agg x0 x1 r j) (Cert.Sage.rowsum x1 r + Ideal.ofBits .f32 0x3F800000#32)
            * x2 (ix2 e ⟨128 + j.val, by have := j.isLt; omega⟩) := by
  rw [val_main_v9_apply, Cert.Sage.sum_halves_fin]
  refine congrArg₂ (· + ·) (Finset.sum_congr rfl fun j _ => ?_) (Finset.sum_congr rfl fun j _ => ?_)
  · rw [val_main_v8_apply]
    refine congrArg₂ (· * ·) ((congrArg (val_main_v7 (F := Ideal) x0 x1) ?_).trans (cat_left x0 x1 r j)) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · rw [val_main_v8_apply]
    refine congrArg₂ (· * ·) ((congrArg (val_main_v7 (F := Ideal) x0 x1) ?_).trans ((cat_right x0 x1 r j).trans (neigh_ref x0 x1 r j))) (congrArg x2 ?_)
    · exact funext fun a => Fin.ext (by match a with | ⟨0, _⟩ => rfl | ⟨1, _⟩ => rfl)
    · exact funext fun a => Fin.ext (by match a with | ⟨0, _⟩ => rfl | ⟨1, _⟩ => rfl)

/-- The reference's result is the layer's result, entry by entry. -/
theorem ref_eq : val_main_v15 (F := Ideal) x0 x1 x2 x3 x4 = Cert.Sage.G x0 x1 x2 x3 x4 := by
  funext i
  obtain ⟨r, k, rfl⟩ : ∃ (r : Fin 16384) (k : Fin 40), i = ix2 r k := ⟨i 0, i 1, eq_ix2 i⟩
  rw [val_main_v15_apply, val_main_v12_apply, val_main_v14_apply, val_main_v13_apply]
  unfold Cert.Sage.G Cert.Sage.outRow
  refine congrArg₂ (· + ·) (Finset.sum_congr rfl fun e _ => ?_) (congrArg x4 ?_)
  · rw [val_main_v10_apply, val_main_v11_apply, val_main_call0_v0_apply]
    have el : lidx_main_v12 (ix2 r k) e = ix2 r e :=
      funext fun a => Fin.ext (by match a with | ⟨0, _⟩ => rfl | ⟨1, _⟩ => rfl)
    rw [el, hid_ref]
    refine congrArg₂ (· * ·) rfl (congrArg x3 ?_)
    exact funext fun a => Fin.ext (by match a with | ⟨0, _⟩ => rfl | ⟨1, _⟩ => rfl)
  · exact funext fun a => Fin.ext (by match a with | ⟨0, _⟩ => rfl)

end Cert.ReferenceIdeal.RefValue

end
-- ==== Proof.lean ====
/-
  The certificate of one GraphSAGE layer with a linear classifier (16384 nodes, 128 features, 256 hidden units, 40
  classes) computed by a tiled kernel against its direct reference.

  The kernel walks an 8 × 8 grid of 2048 × 2048 adjacency tiles. Along a row block it accumulates the neighbour sums
  A·X and the row weights A·1 tile by tile; after the last tile it divides the sums by the weight plus one, applies
  the two halves of the projection to the node's own features and to that quotient, takes the positive part, and
  applies the classifier padded from 40 to 128 columns; the host keeps the first 40 columns. The reference forms
  the same quantities from whole-array operations, joining the two feature blocks before one projection.

  Over the extended reals both are the function `Cert.Sage.G` of the argument arrays (Proof/Spec.lean): a sum over all
  columns is the sum of the eight tiles' sums, a sum over the 256 joined features is the sum of its two halves, and the
  zeros the sums start from add nothing — regroupings of finite sums in a commutative monoid, which hold at infinite
  entries too, so the finiteness of the inputs is never used. The kernel side is Proof/Pieces, State, Payload, Accum,
  Prep and Final; the reference side is Proof/RefSide.
-/
import proofs.«151939_j29755533426830_2_alg».proof.Defs
import proofs.«151939_j29755533426830_2_alg».proof.Proof.Gen.Kernel
import proofs.«151939_j29755533426830_2_alg».proof.Proof.Gen.Kernel.Skeleton
import proofs.«151939_j29755533426830_2_alg».proof.Proof.Gen.Kernel.Launch
import proofs.«151939_j29755533426830_2_alg».proof.Proof.Gen.Kernel.Points
import proofs.«151939_j29755533426830_2_alg».proof.Proof.Gen.Kernel.Frame
import proofs.«151939_j29755533426830_2_alg».proof.Proof.Gen.KernelIdeal
import proofs.«151939_j29755533426830_2_alg».proof.Proof.Gen.KernelIdeal.Skeleton
import proofs.«151939_j29755533426830_2_alg».proof.Proof.Gen.KernelIdeal.Launch
import proofs.«151939_j29755533426830_2_alg».proof.Proof.Gen.KernelIdeal.Points
import proofs.«151939_j29755533426830_2_alg».proof.Proof.Gen.KernelIdeal.Frame
import proofs.«151939_j29755533426830_2_alg».proof.Proof.Gen.ReferenceIdeal
import proofs.«151939_j29755533426830_2_alg».proof.Proof.Gen.ReferenceIdeal.Run
import proofs.«151939_j29755533426830_2_alg».proof.Proof.Gen.ReferenceIdeal.Read
import proofs.«151939_j29755533426830_2_alg».proof.Proof.Gen.Pre_finite_inputs
import proofs.«151939_j29755533426830_2_alg».proof.Proof.Final
import proofs.«151939_j29755533426830_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end at the layer's result `Cert.Sage.G` of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
